-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x10242 : Shape := ⟨2, ![16384, 10242]⟩
abbrev S6x32 : Shape := ⟨2, ![6, 32]⟩
abbrev S32x25 : Shape := ⟨2, ![32, 25]⟩
abbrev S32x2186 : Shape := ⟨2, ![32, 2186]⟩
abbrev S32x8030 : Shape := ⟨2, ![32, 8030]⟩
abbrev S_ : Shape := ⟨0, ![]⟩

class Facts : Prop where
  bcast_S_S6x32 : S_.BroadcastsInDim S6x32 (![] : Fin 0 → Fin S6x32.rank)
  reducesTo_S6x32_S_d0_1 : S6x32.ReducesTo [0, 1] S_
  h_S_ : 0 < S_.numel
  bcast_S_S32x25 : S_.BroadcastsInDim S32x25 (![] : Fin 0 → Fin S32x25.rank)
  reducesTo_S32x25_S_d0_1 : S32x25.ReducesTo [0, 1] S_
  bcast_S_S32x2186 : S_.BroadcastsInDim S32x2186 (![] : Fin 0 → Fin S32x2186.rank)
  reducesTo_S32x2186_S_d0_1 : S32x2186.ReducesTo [0, 1] S_
  bcast_S_S32x8030 : S_.BroadcastsInDim S32x8030 (![] : Fin 0 → Fin S32x8030.rank)
  reducesTo_S32x8030_S_d0_1 : S32x8030.ReducesTo [0, 1] S_

variable [Facts]

def fn_part1 {F : FTy → Type} [FloatOps F] (main_v13 : IVec S_ 1) (main_v16 : IVec S32x8030 1) : IVec S_ 1 :=
  let main_c_5 : IVec S_ 1 := constantI S_ 1 1#1
  let main_v17 : IVec S_ 1 := (fun x v => Host.reduce IntOp.andi x v reducesTo_S32x8030_S_d0_1 h_S_) main_v16 main_c_5
  let main_v18 : IVec S_ 1 := andi main_v13 main_v17
  main_v18

def fn {F : FTy → Type} [FloatOps F] (main_arg0 : IVec S16384x10242 32) (main_arg1 : FVec F S6x32 .f32) (main_arg2 : FVec F S32x25 .f32) (main_arg3 : FVec F S32x2186 .f32) (main_arg4 : FVec F S32x8030 .f32) : IVec S_ 1 :=
  let main_v0 : FVec F S6x32 .f32 := Host.absf main_arg1
  let main_cst : FVec F S_ .f32 := constant S_ .f32 0x7F800000#32
  let main_v1 : FVec F S6x32 .f32 := broadcastInDim S6x32 ![] bcast_S_S6x32 main_cst
  let main_v2 : IVec S6x32 1 := cmpf .olt main_v0 main_v1
  let main_c : IVec S_ 1 := constantI S_ 1 1#1
  let main_v3 : IVec S_ 1 := (fun x v => Host.reduce IntOp.andi x v reducesTo_S6x32_S_d0_1 h_S_) main_v2 main_c
  let main_v4 : FVec F S32x25 .f32 := Host.absf main_arg2
  let main_cst_0 : FVec F S_ .f32 := constant S_ .f32 0x7F800000#32
  let main_v5 : FVec F S32x25 .f32 := broadcastInDim S32x25 ![] bcast_S_S32x25 main_cst_0
  let main_v6 : IVec S32x25 1 := cmpf .olt main_v4 main_v5
  let main_c_1 : IVec S_ 1 := constantI S_ 1 1#1
  let main_v7 : IVec S_ 1 := (fun x v => Host.reduce IntOp.andi x v reducesTo_S32x25_S_d0_1 h_S_) main_v6 main_c_1
  let main_v8 : IVec S_ 1 := andi main_v3 main_v7
  let main_v9 : FVec F S32x2186 .f32 := Host.absf main_arg3
  let main_cst_2 : FVec F S_ .f32 := constant S_ .f32 0x7F800000#32
  let main_v10 : FVec F S32x2186 .f32 := broadcastInDim S32x2186 ![] bcast_S_S32x2186 main_cst_2
  let main_v11 : IVec S32x2186 1 := cmpf .olt main_v9 main_v10
  let main_c_3 : IVec S_ 1 := constantI S_ 1 1#1
  let main_v12 : IVec S_ 1 := (fun x v => Host.reduce IntOp.andi x v reducesTo_S32x2186_S_d0_1 h_S_) main_v11 main_c_3
  let main_v13 : IVec S_ 1 := andi main_v8 main_v12
  let main_v14 : FVec F S32x8030 .f32 := Host.absf main_arg4
  let main_cst_4 : FVec F S_ .f32 := constant S_ .f32 0x7F800000#32
  let main_v15 : FVec F S32x8030 .f32 := broadcastInDim S32x8030 ![] bcast_S_S32x8030 main_cst_4
  let main_v16 : IVec S32x8030 1 := cmpf .olt main_v14 main_v15
  fn_part1 (F := F) main_v13 main_v16
-- ==== Kernel.lean ====
abbrev S16384x10242 : Shape := ⟨2, ![16384, 10242]⟩
abbrev S6x32 : Shape := ⟨2, ![6, 32]⟩
abbrev S32x25 : Shape := ⟨2, ![32, 25]⟩
abbrev S32x2186 : Shape := ⟨2, ![32, 2186]⟩
abbrev S32x8030 : Shape := ⟨2, ![32, 8030]⟩
abbrev S_ : Shape := ⟨0, ![]⟩
abbrev S10242x128 : Shape := ⟨2, ![10242, 128]⟩
abbrev S25x32 : Shape := ⟨2, ![25, 32]⟩
abbrev S1 : Shape := ⟨1, ![1]⟩
abbrev S2 : Shape := ⟨1, ![2]⟩
abbrev S25 : Shape := ⟨1, ![25]⟩
abbrev S2186x32 : Shape := ⟨2, ![2186, 32]⟩
abbrev S2186 : Shape := ⟨1, ![2186]⟩
abbrev S8030x32 : Shape := ⟨2, ![8030, 32]⟩
abbrev S8030 : Shape := ⟨1, ![8030]⟩
abbrev S16384x128 : Shape := ⟨2, ![16384, 128]⟩
abbrev S256x10242 : Shape := ⟨2, ![256, 10242]⟩
abbrev S256x128 : Shape := ⟨2, ![256, 128]⟩
abbrev S16384x32 : Shape := ⟨2, ![16384, 32]⟩
abbrev S16384x1 : Shape := ⟨2, ![16384, 1]⟩
abbrev S16384 : Shape := ⟨1, ![16384]⟩

abbrev nBuf : Space → Nat
  | .hbm => 98
  | .vmem => 5
  | .smem => 0
  | _ => 0

abbrev bufTy : (tb : Table) → Fin (tcTables nBuf tb) → BufTy
  | .hbm, ⟨0, _⟩ => ⟨S16384x10242, .i32⟩
  | .hbm, ⟨1, _⟩ => ⟨S6x32, .f32⟩
  | .hbm, ⟨2, _⟩ => ⟨S32x25, .f32⟩
  | .hbm, ⟨3, _⟩ => ⟨S32x2186, .f32⟩
  | .hbm, ⟨4, _⟩ => ⟨S32x8030, .f32⟩
  | .hbm, ⟨5, _⟩ => ⟨S_, .f32⟩
  | .hbm, ⟨6, _⟩ => ⟨S10242x128, .f32⟩
  | .hbm, ⟨7, _⟩ => ⟨S25x32, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2, .i32⟩
  | .hbm, ⟨13, _⟩ => ⟨S10242x128, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S_, .f32⟩
  | .hbm, ⟨20, _⟩ => ⟨S25, .f32⟩
  | .hbm, ⟨21, _⟩ => ⟨S10242x128, .f32⟩
  | .hbm, ⟨22, _⟩ => ⟨S2186x32, .f32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S2, .i32⟩
  | .hbm, ⟨28, _⟩ => ⟨S10242x128, .f32⟩
  | .hbm, ⟨29, _⟩ => ⟨S_, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S2, .i32⟩
  | .hbm, ⟨34, _⟩ => ⟨S_, .f32⟩
  | .hbm, ⟨35, _⟩ => ⟨S2186, .f32⟩
  | .hbm, ⟨36, _⟩ => ⟨S10242x128, .f32⟩
  | .hbm, ⟨37, _⟩ => ⟨S8030x32, .f32⟩
  | .hbm, ⟨38, _⟩ => ⟨S_, .i32⟩
  | .hbm, ⟨39, _⟩ => ⟨S1, .i32⟩
  | .hbm, ⟨40, _⟩ => ⟨S_, .i32⟩
  | .hbm, ⟨41, _⟩ => ⟨S1, .i32⟩
  | .hbm, ⟨42, _⟩ => ⟨S2, .i32⟩
  | .hbm, ⟨43, _⟩ => ⟨S10242x128, .f32⟩
  | .hbm, ⟨44, _⟩ => ⟨S_, .i32⟩
  | .hbm, ⟨45, _⟩ => ⟨S1, .i32⟩
  | .hbm, ⟨46, _⟩ => ⟨S_, .i32⟩
  | .hbm, ⟨47, _⟩ => ⟨S1, .i32⟩
  | .hbm, ⟨48, _⟩ => ⟨S2, .i32⟩
  | .hbm, ⟨49, _⟩ => ⟨S_, .f32⟩
  | .hbm, ⟨50, _⟩ => ⟨S8030, .f32⟩
  | .hbm, ⟨51, _⟩ => ⟨S10242x128, .f32⟩
  | .hbm, ⟨52, _⟩ => ⟨S10242x128, .bf16⟩
  | .hbm, ⟨53, _⟩ => ⟨S16384x128, .f32⟩
  | .hbm, ⟨54, _⟩ => ⟨S16384x32, .f32⟩
  | .hbm, ⟨55, _⟩ => ⟨S16384x32, .f32⟩
  | .hbm, ⟨56, _⟩ => ⟨S16384x32, .f32⟩
  | .hbm, ⟨57, _⟩ => ⟨S16384x1, .f32⟩
  | .hbm, ⟨58, _⟩ => ⟨S16384x1, .f32⟩
  | .hbm, ⟨59, _⟩ => ⟨S16384x1, .f32⟩
  | .hbm, ⟨60, _⟩ => ⟨S16384x32, .f32⟩
  | .hbm, ⟨61, _⟩ => ⟨S16384x32, .f32⟩
  | .hbm, ⟨62, _⟩ => ⟨S16384x32, .f32⟩
  | .hbm, ⟨63, _⟩ => ⟨S16384x32, .f32⟩
  | .hbm, ⟨64, _⟩ => ⟨S16384x32, .f32⟩
  | .hbm, ⟨65, _⟩ => ⟨S16384x32, .f32⟩
  | .hbm, ⟨66, _⟩ => ⟨S16384x1, .i32⟩
  | .hbm, ⟨67, _⟩ => ⟨S16384, .i32⟩
  | .hbm, ⟨68, _⟩ => ⟨S_, .i32⟩
  | .hbm, ⟨69, _⟩ => ⟨S16384, .i32⟩
  | .hbm, ⟨70, _⟩ => ⟨S16384, .i1⟩
  | .hbm, ⟨71, _⟩ => ⟨S_, .i32⟩
  | .hbm, ⟨72, _⟩ => ⟨S16384, .i32⟩
  | .hbm, ⟨73, _⟩ => ⟨S16384, .i32⟩
  | .hbm, ⟨74, _⟩ => ⟨S16384, .i32⟩
  | .hbm, ⟨75, _⟩ => ⟨S16384x1, .i32⟩
  | .hbm, ⟨76, _⟩ => ⟨S16384x32, .f32⟩
  | .hbm, ⟨77, _⟩ => ⟨S16384x32, .f32⟩
  | .hbm, ⟨78, _⟩ => ⟨S_, .f32⟩
  | .hbm, ⟨79, _⟩ => ⟨S16384, .f32⟩
  | .hbm, ⟨80, _⟩ => ⟨S16384x1, .f32⟩
  | .hbm, ⟨81, _⟩ => ⟨S16384x1, .f32⟩
  | .hbm, ⟨82, _⟩ => ⟨S_, .f32⟩
  | .hbm, ⟨83, _⟩ => ⟨S16384x1, .f32⟩
  | .hbm, ⟨84, _⟩ => ⟨S16384x1, .i1⟩
  | .hbm, ⟨85, _⟩ => ⟨S_, .f32⟩
  | .hbm, ⟨86, _⟩ => ⟨S16384x1, .f32⟩
  | .hbm, ⟨87, _⟩ => ⟨S16384x1, .f32⟩
  | .hbm, ⟨88, _⟩ => ⟨S_, .f32⟩
  | .hbm, ⟨89, _⟩ => ⟨S16384x1, .f32⟩
  | .hbm, ⟨90, _⟩ => ⟨S16384x1, .f32⟩
  | .hbm, ⟨91, _⟩ => ⟨S_, .f32⟩
  | .hbm, ⟨92, _⟩ => ⟨S_, .f32⟩
  | .hbm, ⟨93, _⟩ => ⟨S16384x1, .f32⟩
  | .hbm, ⟨94, _⟩ => ⟨S16384x1, .f32⟩
  | .hbm, ⟨95, _⟩ => ⟨S16384x32, .f32⟩
  | .hbm, ⟨96, _⟩ => ⟨S16384x32, .f32⟩
  | .hbm, ⟨97, _⟩ => ⟨S16384x128, .f32⟩
  | .local _ .vmem, ⟨0, _⟩ => ⟨S256x10242, .i32⟩
  | .local _ .vmem, ⟨1, _⟩ => ⟨S256x10242, .i32⟩
  | .local _ .vmem, ⟨2, _⟩ => ⟨S10242x128, .bf16⟩
  | .local _ .vmem, ⟨3, _⟩ => ⟨S256x128, .f32⟩
  | .local _ .vmem, ⟨4, _⟩ => ⟨S256x128, .f32⟩
  | _, _ => ⟨S16384x10242, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_c_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_4 : Ref sig .tc := ⟨.hbm, 23, rfl⟩
abbrev main_v12 : Ref sig .tc := ⟨.hbm, 24, rfl⟩
abbrev main_c_5 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_6 : Ref sig .tc := ⟨.hbm, 29, rfl⟩
abbrev main_v16 : Ref sig .tc := ⟨.hbm, 30, rfl⟩
abbrev main_c_7 : Ref sig .tc := ⟨.hbm, 31, rfl⟩
abbrev main_v17 : Ref sig .tc := ⟨.hbm, 32, rfl⟩
abbrev main_v18 : Ref sig .tc := ⟨.hbm, 33, rfl⟩
abbrev main_cst_8 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_9 : Ref sig .tc := ⟨.hbm, 38, rfl⟩
abbrev main_v22 : Ref sig .tc := ⟨.hbm, 39, rfl⟩
abbrev main_c_10 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_11 : Ref sig .tc := ⟨.hbm, 44, rfl⟩
abbrev main_v26 : Ref sig .tc := ⟨.hbm, 45, rfl⟩
abbrev main_c_12 : Ref sig .tc := ⟨.hbm, 46, rfl⟩
abbrev main_v27 : Ref sig .tc := ⟨.hbm, 47, rfl⟩
abbrev main_v28 : Ref sig .tc := ⟨.hbm, 48, rfl⟩
abbrev main_cst_13 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_14 : Ref sig .tc := ⟨.hbm, 68, rfl⟩
abbrev main_v47 : Ref sig .tc := ⟨.hbm, 69, rfl⟩
abbrev main_v48 : Ref sig .tc := ⟨.hbm, 70, rfl⟩
abbrev main_c_15 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call0_v0 : Ref sig .tc := ⟨.hbm, 77, rfl⟩
abbrev main_call0_cst : Ref sig .tc := ⟨.hbm, 78, rfl⟩
abbrev main_call0_v1 : Ref sig .tc := ⟨.hbm, 79, rfl⟩
abbrev main_call0_v2 : Ref sig .tc := ⟨.hbm, 80, rfl⟩
abbrev main_v54 : Ref sig .tc := ⟨.hbm, 81, rfl⟩
abbrev main_cst_16 : Ref sig .tc := ⟨.hbm, 82, rfl⟩
abbrev main_v55 : Ref sig .tc := ⟨.hbm, 83, rfl⟩
abbrev main_v56 : Ref sig .tc := ⟨.hbm, 84, rfl⟩
abbrev main_cst_17 : Ref sig .tc := ⟨.hbm, 85, rfl⟩
abbrev main_v57 : Ref sig .tc := ⟨.hbm, 86, rfl⟩
abbrev main_v58 : Ref sig .tc := ⟨.hbm, 87, rfl⟩
abbrev main_cst_18 : Ref sig .tc := ⟨.hbm, 88, rfl⟩
abbrev main_v59 : Ref sig .tc := ⟨.hbm, 89, rfl⟩
abbrev main_v60 : Ref sig .tc := ⟨.hbm, 90, rfl⟩
abbrev main_cst_19 : Ref sig .tc := ⟨.hbm, 91, rfl⟩
abbrev main_call1_v0 : Ref sig .tc := ⟨.hbm, 92, rfl⟩
abbrev main_call1_v1 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x10242 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10242x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S10242x128 : S_.BroadcastsInDim S10242x128 (![] : Fin 0 → Fin S10242x128.rank)
  transposes_S32x25_S25x32_1_0 : S32x25.Transposes [1, 0] S25x32
  bcast_S_S1 : S_.BroadcastsInDim S1 (![] : Fin 0 → Fin S1.rank)
  concatenates_S1_S1_S2_d0 : Shape.Concatenates [S1, S1] S2 0
  bcast_S_S25 : S_.BroadcastsInDim S25 (![] : Fin 0 → Fin S25.rank)
  transposes_S32x2186_S2186x32_1_0 : S32x2186.Transposes [1, 0] S2186x32
  bcast_S_S2186 : S_.BroadcastsInDim S2186 (![] : Fin 0 → Fin S2186.rank)
  transposes_S32x8030_S8030x32_1_0 : S32x8030.Transposes [1, 0] S8030x32
  bcast_S_S8030 : S_.BroadcastsInDim S8030 (![] : Fin 0 → Fin S8030.rank)
  bitsLt_bf16_f32 : FTy.bits .bf16 < FTy.bits .f32
  inb_S256x10242_S256x10242_0_0 : ∀ a, (![0, 0] : Fin 2 → Nat) a + S256x10242.size a ≤ S256x10242.size a
  h_S256x10242 : 0 < S256x10242.numel
  inb_S10242x128_S10242x128_0_0 : ∀ a, (![0, 0] : Fin 2 → Nat) a + S10242x128.size a ≤ S10242x128.size a
  h_S10242x128 : 0 < S10242x128.numel
  shapeCasts_S10242x128_S10242x128 : S10242x128.ShapeCasts S10242x128
  inb_S256x128_S256x128_0_0 : ∀ a, (![0, 0] : Fin 2 → Nat) a + S256x128.size a ≤ S256x128.size a
  h_S256x128 : 0 < S256x128.numel
  slices_S16384x128_S16384x32_0_0 : S16384x128.Slices ![0, 0] S16384x32
  slices_S16384x128_S16384x32_0_32 : S16384x128.Slices ![0, 32] S16384x32
  slices_S16384x128_S16384x32_0_64 : S16384x128.Slices ![0, 64] S16384x32
  slices_S16384x128_S16384x1_0_96 : S16384x128.Slices ![0, 96] S16384x1
  slices_S16384x128_S16384x1_0_97 : S16384x128.Slices ![0, 97] S16384x1
  slices_S16384x128_S16384x1_0_98 : S16384x128.Slices ![0, 98] S16384x1
  bcast_S16384x1_S16384x32_0_1 : S16384x1.BroadcastsInDim S16384x32 (![0, 1] : Fin 2 → Fin S16384x32.rank)
  slices_S16384x10242_S16384x1_0_0 : S16384x10242.Slices ![0, 0] S16384x1
  shapeCasts_S16384x1_S16384 : S16384x1.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  reducesTo_S16384x32_S16384_d1 : S16384x32.ReducesTo [1] S16384
  h_S_ : 0 < S_.numel
  bcast_S_S16384x1 : S_.BroadcastsInDim S16384x1 (![] : Fin 0 → Fin S16384x1.rank)
  concatenates_S16384x32_S16384x32_S16384x32_S16384x32_S16384x128_d1 : Shape.Concatenates [S16384x32, S16384x32, S16384x32, S16384x32] S16384x128 1
  scatter_S10242x128_S2_S25x32_01_n_01_0_wf : ScatterDims.WF S10242x128 S2 S25x32 [0, 1] [] [0, 1] 0
  scatter_S10242x128_S2_S25_0_1_01_0_wf : ScatterDims.WF S10242x128 S2 S25 [0] [1] [0, 1] 0
  scatter_S10242x128_S2_S2186x32_01_n_01_0_wf : ScatterDims.WF S10242x128 S2 S2186x32 [0, 1] [] [0, 1] 0
  scatter_S10242x128_S2_S2186_0_1_01_0_wf : ScatterDims.WF S10242x128 S2 S2186 [0] [1] [0, 1] 0
  scatter_S10242x128_S2_S8030x32_01_n_01_0_wf : ScatterDims.WF S10242x128 S2 S8030x32 [0, 1] [] [0, 1] 0
  scatter_S10242x128_S2_S8030_0_1_01_0_wf : ScatterDims.WF S10242x128 S2 S8030 [0] [1] [0, 1] 0
  dot_S256x10242_S10242x128_S256x128_1_0_0_1_n_n_wf : DotDims.WF S256x10242 S10242x128 S256x128 [1] [0] [0] [1] [] []
  gather_S6x32_S16384x1_S16384x32_1_0_n_n_0_1_132_wf : GatherDims.WF S6x32 S16384x1 S16384x32 [1] [0] [] [0] [] 1 ![1, 32]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x10242.size a ≤ S16384x10242.size a
  hwx0_0 : ∀ i : grid0.Coords, EltTy.bits .i32 = 32 ∨ (Rect.block (s := S16384x10242) S256x10242.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10242x128.size a ≤ S10242x128.size a
  hwx0_1 : ∀ i : grid0.Coords, EltTy.bits .bf16 = 32 ∨ (Rect.block (s := S10242x128) S10242x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S16384x128.size a
  hwx0_2 : ∀ i : grid0.Coords, EltTy.bits .f32 = 32 ∨ (Rect.block (s := S16384x128) S256x128.size (cc0_transform_2 i) (hinb0_2 i)).WholeWords (EltTy.packing .f32)

variable [Facts₀]

def scatter_S10242x128_S2_S25x32_01_n_01_0 : ScatterDims S10242x128 S2 S25x32 where
  updateWindowDims := [0, 1]
  insertedWindowDims := []
  scatterDimsToOperandDims := [0, 1]
  indexVectorDim := 0
  wf := scatter_S10242x128_S2_S25x32_01_n_01_0_wf
def scatter_S10242x128_S2_S25_0_1_01_0 : ScatterDims S10242x128 S2 S25 where
  updateWindowDims := [0]
  insertedWindowDims := [1]
  scatterDimsToOperandDims := [0, 1]
  indexVectorDim := 0
  wf := scatter_S10242x128_S2_S25_0_1_01_0_wf
def scatter_S10242x128_S2_S2186x32_01_n_01_0 : ScatterDims S10242x128 S2 S2186x32 where
  updateWindowDims := [0, 1]
  insertedWindowDims := []
  scatterDimsToOperandDims := [0, 1]
  indexVectorDim := 0
  wf := scatter_S10242x128_S2_S2186x32_01_n_01_0_wf
def scatter_S10242x128_S2_S2186_0_1_01_0 : ScatterDims S10242x128 S2 S2186 where
  updateWindowDims := [0]
  insertedWindowDims := [1]
  scatterDimsToOperandDims := [0, 1]
  indexVectorDim := 0
  wf := scatter_S10242x128_S2_S2186_0_1_01_0_wf
def scatter_S10242x128_S2_S8030x32_01_n_01_0 : ScatterDims S10242x128 S2 S8030x32 where
  updateWindowDims := [0, 1]
  insertedWindowDims := []
  scatterDimsToOperandDims := [0, 1]
  indexVectorDim := 0
  wf := scatter_S10242x128_S2_S8030x32_01_n_01_0_wf
def scatter_S10242x128_S2_S8030_0_1_01_0 : ScatterDims S10242x128 S2 S8030 where
  updateWindowDims := [0]
  insertedWindowDims := [1]
  scatterDimsToOperandDims := [0, 1]
  indexVectorDim := 0
  wf := scatter_S10242x128_S2_S8030_0_1_01_0_wf
def dot_S256x10242_S10242x128_S256x128_1_0_0_1_n_n : DotDims S256x10242 S10242x128 S256x128 where
  lhsContracting := [1]
  rhsContracting := [0]
  lhsNonContracting := [0]
  rhsNonContracting := [1]
  lhsBatch := []
  rhsBatch := []
  wf := dot_S256x10242_S10242x128_S256x128_1_0_0_1_n_n_wf
def gather_S6x32_S16384x1_S16384x32_1_0_n_n_0_1_132 : GatherDims S6x32 S16384x1 S16384x32 where
  offsetDims := [1]
  collapsedSliceDims := [0]
  operandBatchingDims := []
  startIndicesBatchingDims := []
  startIndexMap := [0]
  indexVectorDim := 1
  sliceSizes := ![1, 32]
  wf := gather_S6x32_S16384x1_S16384x32_1_0_n_n_0_1_132_wf

abbrev win0_0 : Pipeline.Window sig grid0 :=
  Pipeline.Window.ofSpec (Memref.whole main_arg0) S256x10242.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S10242x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S256x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x10242 : Shape := ⟨2, ![16384, 10242]⟩
abbrev S6x32 : Shape := ⟨2, ![6, 32]⟩
abbrev S32x25 : Shape := ⟨2, ![32, 25]⟩
abbrev S32x2186 : Shape := ⟨2, ![32, 2186]⟩
abbrev S32x8030 : Shape := ⟨2, ![32, 8030]⟩
abbrev S16384x1 : Shape := ⟨2, ![16384, 1]⟩
abbrev S16384 : Shape := ⟨1, ![16384]⟩
abbrev S16384x25 : Shape := ⟨2, ![16384, 25]⟩
abbrev S16384x2186 : Shape := ⟨2, ![16384, 2186]⟩
abbrev S16384x8030 : Shape := ⟨2, ![16384, 8030]⟩
abbrev S_ : Shape := ⟨0, ![]⟩
abbrev S16384x32 : Shape := ⟨2, ![16384, 32]⟩
abbrev S16384x128 : Shape := ⟨2, ![16384, 128]⟩

abbrev nBuf : Space → Nat
  | .hbm => 61
  | .vmem => 0
  | .smem => 0
  | _ => 0

abbrev bufTy : (tb : Table) → Fin (tcTables nBuf tb) → BufTy
  | .hbm, ⟨0, _⟩ => ⟨S16384x10242, .i32⟩
  | .hbm, ⟨1, _⟩ => ⟨S6x32, .f32⟩
  | .hbm, ⟨2, _⟩ => ⟨S32x25, .f32⟩
  | .hbm, ⟨3, _⟩ => ⟨S32x2186, .f32⟩
  | .hbm, ⟨4, _⟩ => ⟨S32x8030, .f32⟩
  | .hbm, ⟨5, _⟩ => ⟨S16384x1, .i32⟩
  | .hbm, ⟨6, _⟩ => ⟨S16384, .i32⟩
  | .hbm, ⟨7, _⟩ => ⟨S16384x25, .i32⟩
  | .hbm, ⟨8, _⟩ => ⟨S16384x25, .f32⟩
  | .hbm, ⟨9, _⟩ => ⟨S16384x2186, .i32⟩
  | .hbm, ⟨10, _⟩ => ⟨S16384x2186, .f32⟩
  | .hbm, ⟨11, _⟩ => ⟨S16384x8030, .i32⟩
  | .hbm, ⟨12, _⟩ => ⟨S16384x8030, .f32⟩
  | .hbm, ⟨13, _⟩ => ⟨S_, .i32⟩
  | .hbm, ⟨14, _⟩ => ⟨S16384, .i32⟩
  | .hbm, ⟨15, _⟩ => ⟨S16384, .i1⟩
  | .hbm, ⟨16, _⟩ => ⟨S_, .i32⟩
  | .hbm, ⟨17, _⟩ => ⟨S16384, .i32⟩
  | .hbm, ⟨18, _⟩ => ⟨S16384, .i32⟩
  | .hbm, ⟨19, _⟩ => ⟨S16384, .i32⟩
  | .hbm, ⟨20, _⟩ => ⟨S16384x1, .i32⟩
  | .hbm, ⟨21, _⟩ => ⟨S16384x32, .f32⟩
  | .hbm, ⟨22, _⟩ => ⟨S16384x32, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .i1⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S_, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x32, .f32⟩
  | .hbm, ⟨41, _⟩ => ⟨S16384x32, .f32⟩
  | .hbm, ⟨42, _⟩ => ⟨S16384x32, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S16384x32, .f32⟩
  | .hbm, ⟨47, _⟩ => ⟨S16384x32, .f32⟩
  | .hbm, ⟨48, _⟩ => ⟨S16384x32, .f32⟩
  | .hbm, ⟨49, _⟩ => ⟨S_, .f32⟩
  | .hbm, ⟨50, _⟩ => ⟨S16384, .f32⟩
  | .hbm, ⟨51, _⟩ => ⟨S16384x1, .f32⟩
  | .hbm, ⟨52, _⟩ => ⟨S16384x32, .f32⟩
  | .hbm, ⟨53, _⟩ => ⟨S16384x32, .f32⟩
  | .hbm, ⟨54, _⟩ => ⟨S16384x32, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S16384x32, .f32⟩
  | .hbm, ⟨59, _⟩ => ⟨S16384x32, .f32⟩
  | .hbm, ⟨60, _⟩ => ⟨S16384x128, .f32⟩
  | _, _ => ⟨S16384x10242, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_cst : Ref sig .tc := ⟨.hbm, 23, rfl⟩
abbrev main_call0_v1 : Ref sig .tc := ⟨.hbm, 24, rfl⟩
abbrev main_call0_v2 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_call1_v0 : Ref sig .tc := ⟨.hbm, 37, rfl⟩
abbrev main_call1_v1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]

class Facts₀ : Prop where
  slices_S16384x10242_S16384x1_0_0 : S16384x10242.Slices ![0, 0] S16384x1
  shapeCasts_S16384x1_S16384 : S16384x1.ShapeCasts S16384
  slices_S16384x10242_S16384x25_0_1 : S16384x10242.Slices ![0, 1] S16384x25
  slices_S16384x10242_S16384x2186_0_26 : S16384x10242.Slices ![0, 26] S16384x2186
  slices_S16384x10242_S16384x8030_0_2212 : S16384x10242.Slices ![0, 2212] S16384x8030
  bcast_S_S16384 : S_.BroadcastsInDim S16384 (![] : Fin 0 → Fin S16384.rank)
  bcast_S16384_S16384x1_0 : S16384.BroadcastsInDim S16384x1 (![0] : Fin 1 → Fin S16384x1.rank)
  reducesTo_S16384x32_S16384_d1 : S16384x32.ReducesTo [1] S16384
  h_S_ : 0 < S_.numel
  bcast_S_S16384x1 : S_.BroadcastsInDim S16384x1 (![] : Fin 0 → Fin S16384x1.rank)
  bcast_S16384x1_S16384x32_0_1 : S16384x1.BroadcastsInDim S16384x32 (![0, 1] : Fin 2 → Fin S16384x32.rank)
  reducesTo_S16384x25_S16384_d1 : S16384x25.ReducesTo [1] S16384
  reducesTo_S16384x2186_S16384_d1 : S16384x2186.ReducesTo [1] S16384
  reducesTo_S16384x8030_S16384_d1 : S16384x8030.ReducesTo [1] S16384
  concatenates_S16384x32_S16384x32_S16384x32_S16384x32_S16384x128_d1 : Shape.Concatenates [S16384x32, S16384x32, S16384x32, S16384x32] S16384x128 1
  gather_S6x32_S16384x1_S16384x32_1_0_n_n_0_1_132_wf : GatherDims.WF S6x32 S16384x1 S16384x32 [1] [0] [] [0] [] 1 ![1, 32]
  dot_S16384x25_S32x25_S16384x32_1_1_0_0_n_n_wf : DotDims.WF S16384x25 S32x25 S16384x32 [1] [1] [0] [0] [] []
  dot_S16384x2186_S32x2186_S16384x32_1_1_0_0_n_n_wf : DotDims.WF S16384x2186 S32x2186 S16384x32 [1] [1] [0] [0] [] []
  dot_S16384x8030_S32x8030_S16384x32_1_1_0_0_n_n_wf : DotDims.WF S16384x8030 S32x8030 S16384x32 [1] [1] [0] [0] [] []

variable [Facts₀]

def gather_S6x32_S16384x1_S16384x32_1_0_n_n_0_1_132 : GatherDims S6x32 S16384x1 S16384x32 where
  offsetDims := [1]
  collapsedSliceDims := [0]
  operandBatchingDims := []
  startIndicesBatchingDims := []
  startIndexMap := [0]
  indexVectorDim := 1
  sliceSizes := ![1, 32]
  wf := gather_S6x32_S16384x1_S16384x32_1_0_n_n_0_1_132_wf
def dot_S16384x25_S32x25_S16384x32_1_1_0_0_n_n : DotDims S16384x25 S32x25 S16384x32 where
  lhsContracting := [1]
  rhsContracting := [1]
  lhsNonContracting := [0]
  rhsNonContracting := [0]
  lhsBatch := []
  rhsBatch := []
  wf := dot_S16384x25_S32x25_S16384x32_1_1_0_0_n_n_wf
def dot_S16384x2186_S32x2186_S16384x32_1_1_0_0_n_n : DotDims S16384x2186 S32x2186 S16384x32 where
  lhsContracting := [1]
  rhsContracting := [1]
  lhsNonContracting := [0]
  rhsNonContracting := [0]
  lhsBatch := []
  rhsBatch := []
  wf := dot_S16384x2186_S32x2186_S16384x32_1_1_0_0_n_n_wf
def dot_S16384x8030_S32x8030_S16384x32_1_1_0_0_n_n : DotDims S16384x8030 S32x8030 S16384x32 where
  lhsContracting := [1]
  rhsContracting := [1]
  lhsNonContracting := [0]
  rhsNonContracting := [0]
  lhsBatch := []
  rhsBatch := []
  wf := dot_S16384x8030_S32x8030_S16384x32_1_1_0_0_n_n_wf

class Facts : Prop extends Facts₀ where

variable [Facts]
-- ==== Proof.FrameBits.lean ====
import proofs.«124779_j83743272337681_1_alg».proof.Proof.Gen.Kernel.Launch
import proofs.«124779_j83743272337681_1_alg».proof.Proof.Gen.Kernel.Skeleton
import proofs.«124779_j83743272337681_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! The program runs to its end, faults nowhere and leaves its five argument arrays as it found them.

The host program first builds the combined weight from the three weight matrices; then one region of 64 grid
points multiplies, at point `t`, rows `256·t … 256·t + 255` of the integer input (read as numbers) by the whole
combined weight and writes the 256 × 128 product back as the same rows of the result; then a tail of host
operations slices, divides, gathers and joins. What is proved here, at any reading of the floats: what the
body leaves in the output block at a point, as one function of the two input blocks (`out0_2`); that the body
run on those blocks ends with exactly that (`sound_kernel`); the region's run over all points with every
output array named (`run_main`); and that no operation before or after the region writes an argument array
(`frame`). -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- The five stretches of host operations that follow the region. -/
local notation "𝕋" => ([hostOps1, hostOps1_1, hostOps1_2, hostOps1_3, hostOps1_4] : List (List (HloOp τ sig (Elt F))))

variable (m : (ℓ : Loc nD τ sig) → Buf (Elt F) ℓ) (ρ : Dev nD → PrngReg)

/-! ## The host program around the region -/

/-- What each buffer of a core holds when the region is entered: the launch memory after the host operations
    that come before the region. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- The program is: the operations before the region, the region, the five later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (List.map StableHlo.seq 𝕋)) :=
  Pipeline.hmain_around cfgs 0 defs₀ 𝒱₀ m main [hostOps0] 𝕋 (by simp only [List.Forall]; exact hostOps0_sub)
    (by simp only [List.Forall]; exact hostOps0_fresh) main_chain

/-- The later operations touch only buffers that are not scoped to the region. -/
theorem sfx_sub : ∀ ops ∈ 𝕋, ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
/-- They allocate nothing. -/
theorem sfx_fresh : ∀ ops ∈ 𝕋, ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
/-- No operation of this stretch writes one of the region's three arrays: each writes its own result only. -/
theorem hostOps1_keeps : (hostOps1 : List (HloOp τ sig (Elt F))).Forall fun op => ∀ w, Proc.devRef .tc (Pipeline.arrRef spec0 w) ∉ op.writes := by
  simp only [hostOps1, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
/-- No operation of this stretch writes one of the region's three arrays: each writes its own result only. -/
theorem hostOps1_1_keeps : (hostOps1_1 : List (HloOp τ sig (Elt F))).Forall fun op => ∀ w, Proc.devRef .tc (Pipeline.arrRef spec0 w) ∉ op.writes := by
  simp only [hostOps1_1, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
/-- No operation of this stretch writes one of the region's three arrays: each writes its own result only. -/
theorem hostOps1_2_keeps : (hostOps1_2 : List (HloOp τ sig (Elt F))).Forall fun op => ∀ w, Proc.devRef .tc (Pipeline.arrRef spec0 w) ∉ op.writes := by
  simp only [hostOps1_2, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
/-- No operation of this stretch writes one of the region's three arrays: each writes its own result only. -/
theorem hostOps1_3_keeps : (hostOps1_3 : List (HloOp τ sig (Elt F))).Forall fun op => ∀ w, Proc.devRef .tc (Pipeline.arrRef spec0 w) ∉ op.writes := by
  simp only [hostOps1_3, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
/-- No operation of this stretch writes one of the region's three arrays: each writes its own result only. -/
theorem hostOps1_4_keeps : (hostOps1_4 : List (HloOp τ sig (Elt F))).Forall fun op => ∀ w, Proc.devRef .tc (Pipeline.arrRef spec0 w) ∉ op.writes := by
  simp only [hostOps1_4, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
theorem sfx_keeps : ∀ ops ∈ 𝕋, ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop

/-- No operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation after the region writes argument 1, and the region does not stage it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) 𝕋 c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No operation after the region writes argument 2, and the region does not stage it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) 𝕋 c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, hostOps1_3, hostOps1_4, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No operation after the region writes argument 3, and the region does not stage it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) 𝕋 c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, hostOps1_3, hostOps1_4, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No operation after the region writes argument 4, and the region does not stage it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) 𝕋 c main_arg4 = m ((c : Thread nD τ).loc main_arg4) := by
  unfold Pipeline.afterTail₀
  rw [StableHlo.after_of_forall_not_mem (b := Proc.devRef .tc main_arg4) _ _ (List.forall_iff_forall_mem.mp (by
      simp only [hostOps1, hostOps1_1, hostOps1_2, hostOps1_3, hostOps1_4, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The blocks -/

/-- The block of window `w` at point `t`, read off the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffer of the integer input holds its block at every point (it is fetched at every point). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The staging buffer of the combined weight holds the whole weight at every point: it is fetched once, its
    block index never moves, and the body leaves it in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## From the region's run to the arguments unchanged -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) 𝕋))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c)⟩) h

/-! ## What the body leaves in the output block -/

abbrev r0 : Rect S256x10242 := Rect.unit (s := S256x10242) ![0, 0] S256x10242.size inb_S256x10242_S256x10242_0_0
abbrev r1 : Rect S10242x128 := Rect.unit (s := S10242x128) ![0, 0] S10242x128.size inb_S10242x128_S10242x128_0_0
abbrev r2 : Rect S256x128 := Rect.unit (s := S256x128) ![0, 0] S256x128.size inb_S256x128_S256x128_0_0

/-- The output block after the body, from the two input blocks: one store of the whole block, its value the
    product of the integer block (read as numbers) and the weight. -/
def out0_2 (x0 : Vec F S256x10242 .i32) (x1 : Vec F S10242x128 .bf16) : Vec F S256x128 .f32 :=
  View.canon [⟨r2, k0_pay1 (View.ld x0 r0) (View.ld x1 r1)⟩]

/-- The one store covers the block. -/
theorem cover0_2 (p0 : Vec F S256x128 .f32) (y : S256x128.Idx) :
    ∃ pc ∈ ([⟨r2, p0⟩] : List (View.Piece (Elt F) S256x128 .f32)), y ∈ pc.1.set :=
  View.cover_of_tiled [⟨r2, p0⟩] S256x128.size (by rfl) y

/-! ## The body's run -/

set_option maxHeartbeats 1000000 in
/-- The body on whole staging buffers, the two inputs' at contents `x0`, `x1` and the output's at anything,
    runs to the end with the inputs' as they were and the output's at `out0_2 x0 x1`. -/
theorem sound_kernel (c : Dev nD) (E : Set ℕ) (i : grid0.Coords)
    (arg1 : Memref sig .tc .vmem S256x10242 .i32) (harg1 : arg1.IsWhole)
    (arg2 : Memref sig .tc .vmem S10242x128 .bf16) (harg2 : arg2.IsWhole)
    (arg3 : Memref sig .tc .vmem S256x128 .f32) (harg3 : arg3.IsWhole)
    (x0 : Vec F S256x10242 .i32) (x1 : Vec F S10242x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__pool_kernel i arg1 harg1 arg2 harg2 arg3 harg3) K := by
  simp only [cc0__pool_kernel_eq_skeleton]; unfold cc0__pool_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- On core `c`: the arrays as the region finds them; after the body at point `t` each input's buffer at its
    block and the output's at `out0_2` of the two; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program ends, without a fault, with each of the region's arrays at what
    the write-backs leave and every other unscoped buffer as the later operations leave it. -/
theorem run_main : θ_run defs (onTc (τ := τ) (main (F := F))) (s₀ m ρ) (Pipeline.FramePost cfgs (dats m) 0 (Pipeline.afterTail₀ cfgs (dats m) 0 (V0 m) 𝕋)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := 𝕋) (hsub := sfx_sub) (hfresh := sfx_fresh) (hkeep := sfx_keeps)
    (hmain := hmain m Variants.none) (hA := A_eq m) (hΦ := fun _ _ => rfl)

/-- The program runs and its five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Fr

end
-- ==== Proof.FrameIdeal.lean ====
import proofs.«124779_j83743272337681_1_alg».proof.Proof.Gen.KernelIdeal.Launch
import proofs.«124779_j83743272337681_1_alg».proof.Proof.Gen.KernelIdeal.Skeleton
import proofs.«124779_j83743272337681_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! The program runs to its end, faults nowhere and leaves its five argument arrays as it found them.

The host program first builds the combined weight from the three weight matrices; then one region of 64 grid
points multiplies, at point `t`, rows `256·t … 256·t + 255` of the integer input (read as numbers) by the whole
combined weight and writes the 256 × 128 product back as the same rows of the result; then a tail of host
operations slices, divides, gathers and joins. What is proved here, at any reading of the floats: what the
body leaves in the output block at a point, as one function of the two input blocks (`out0_2`); that the body
run on those blocks ends with exactly that (`sound_kernel`); the region's run over all points with every
output array named (`run_main`); and that no operation before or after the region writes an argument array
(`frame`). -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- The five stretches of host operations that follow the region. -/
local notation "𝕋" => ([hostOps1, hostOps1_1, hostOps1_2, hostOps1_3, hostOps1_4] : List (List (HloOp τ sig (Elt F))))

variable (m : (ℓ : Loc nD τ sig) → Buf (Elt F) ℓ) (ρ : Dev nD → PrngReg)

/-! ## The host program around the region -/

/-- What each buffer of a core holds when the region is entered: the launch memory after the host operations
    that come before the region. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- The program is: the operations before the region, the region, the five later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (List.map StableHlo.seq 𝕋)) :=
  Pipeline.hmain_around cfgs 0 defs₀ 𝒱₀ m main [hostOps0] 𝕋 (by simp only [List.Forall]; exact hostOps0_sub)
    (by simp only [List.Forall]; exact hostOps0_fresh) main_chain

/-- The later operations touch only buffers that are not scoped to the region. -/
theorem sfx_sub : ∀ ops ∈ 𝕋, ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
/-- They allocate nothing. -/
theorem sfx_fresh : ∀ ops ∈ 𝕋, ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
/-- No operation of this stretch writes one of the region's three arrays: each writes its own result only. -/
theorem hostOps1_keeps : (hostOps1 : List (HloOp τ sig (Elt F))).Forall fun op => ∀ w, Proc.devRef .tc (Pipeline.arrRef spec0 w) ∉ op.writes := by
  simp only [hostOps1, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
/-- No operation of this stretch writes one of the region's three arrays: each writes its own result only. -/
theorem hostOps1_1_keeps : (hostOps1_1 : List (HloOp τ sig (Elt F))).Forall fun op => ∀ w, Proc.devRef .tc (Pipeline.arrRef spec0 w) ∉ op.writes := by
  simp only [hostOps1_1, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
/-- No operation of this stretch writes one of the region's three arrays: each writes its own result only. -/
theorem hostOps1_2_keeps : (hostOps1_2 : List (HloOp τ sig (Elt F))).Forall fun op => ∀ w, Proc.devRef .tc (Pipeline.arrRef spec0 w) ∉ op.writes := by
  simp only [hostOps1_2, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
/-- No operation of this stretch writes one of the region's three arrays: each writes its own result only. -/
theorem hostOps1_3_keeps : (hostOps1_3 : List (HloOp τ sig (Elt F))).Forall fun op => ∀ w, Proc.devRef .tc (Pipeline.arrRef spec0 w) ∉ op.writes := by
  simp only [hostOps1_3, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
/-- No operation of this stretch writes one of the region's three arrays: each writes its own result only. -/
theorem hostOps1_4_keeps : (hostOps1_4 : List (HloOp τ sig (Elt F))).Forall fun op => ∀ w, Proc.devRef .tc (Pipeline.arrRef spec0 w) ∉ op.writes := by
  simp only [hostOps1_4, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
theorem sfx_keeps : ∀ ops ∈ 𝕋, ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop

/-- No operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No operation after the region writes argument 1, and the region does not stage it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) 𝕋 c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No operation after the region writes argument 2, and the region does not stage it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) 𝕋 c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, hostOps1_3, hostOps1_4, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No operation after the region writes argument 3, and the region does not stage it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) 𝕋 c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, hostOps1_3, hostOps1_4, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No operation after the region writes argument 4, and the region does not stage it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) 𝕋 c main_arg4 = m ((c : Thread nD τ).loc main_arg4) := by
  unfold Pipeline.afterTail₀
  rw [StableHlo.after_of_forall_not_mem (b := Proc.devRef .tc main_arg4) _ _ (List.forall_iff_forall_mem.mp (by
      simp only [hostOps1, hostOps1_1, hostOps1_2, hostOps1_3, hostOps1_4, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The blocks -/

/-- The block of window `w` at point `t`, read off the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffer of the integer input holds its block at every point (it is fetched at every point). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The staging buffer of the combined weight holds the whole weight at every point: it is fetched once, its
    block index never moves, and the body leaves it in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## From the region's run to the arguments unchanged -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) 𝕋))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c)⟩) h

/-! ## What the body leaves in the output block -/

abbrev r0 : Rect S256x10242 := Rect.unit (s := S256x10242) ![0, 0] S256x10242.size inb_S256x10242_S256x10242_0_0
abbrev r1 : Rect S10242x128 := Rect.unit (s := S10242x128) ![0, 0] S10242x128.size inb_S10242x128_S10242x128_0_0
abbrev r2 : Rect S256x128 := Rect.unit (s := S256x128) ![0, 0] S256x128.size inb_S256x128_S256x128_0_0

/-- The output block after the body, from the two input blocks: one store of the whole block, its value the
    product of the integer block (read as numbers) and the weight. -/
def out0_2 (x0 : Vec F S256x10242 .i32) (x1 : Vec F S10242x128 .bf16) : Vec F S256x128 .f32 :=
  View.canon [⟨r2, k0_pay1 (View.ld x0 r0) (View.ld x1 r1)⟩]

/-- The one store covers the block. -/
theorem cover0_2 (p0 : Vec F S256x128 .f32) (y : S256x128.Idx) :
    ∃ pc ∈ ([⟨r2, p0⟩] : List (View.Piece (Elt F) S256x128 .f32)), y ∈ pc.1.set :=
  View.cover_of_tiled [⟨r2, p0⟩] S256x128.size (by rfl) y

/-! ## The body's run -/

set_option maxHeartbeats 1000000 in
/-- The body on whole staging buffers, the two inputs' at contents `x0`, `x1` and the output's at anything,
    runs to the end with the inputs' as they were and the output's at `out0_2 x0 x1`. -/
theorem sound_kernel (c : Dev nD) (E : Set ℕ) (i : grid0.Coords)
    (arg1 : Memref sig .tc .vmem S256x10242 .i32) (harg1 : arg1.IsWhole)
    (arg2 : Memref sig .tc .vmem S10242x128 .bf16) (harg2 : arg2.IsWhole)
    (arg3 : Memref sig .tc .vmem S256x128 .f32) (harg3 : arg3.IsWhole)
    (x0 : Vec F S256x10242 .i32) (x1 : Vec F S10242x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__pool_kernel i arg1 harg1 arg2 harg2 arg3 harg3) K := by
  simp only [cc0__pool_kernel_eq_skeleton]; unfold cc0__pool_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- On core `c`: the arrays as the region finds them; after the body at point `t` each input's buffer at its
    block and the output's at `out0_2` of the two; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program ends, without a fault, with each of the region's arrays at what
    the write-backs leave and every other unscoped buffer as the later operations leave it. -/
theorem run_main : θ_run defs (onTc (τ := τ) (main (F := F))) (s₀ m ρ) (Pipeline.FramePost cfgs (dats m) 0 (Pipeline.afterTail₀ cfgs (dats m) 0 (V0 m) 𝕋)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := 𝕋) (hsub := sfx_sub) (hfresh := sfx_fresh) (hkeep := sfx_keeps)
    (hmain := hmain m Variants.none) (hA := A_eq m) (hΦ := fun _ _ => rfl)

/-- The program runs and its five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Fr

end
-- ==== Proof.PoolSpec.lean ====
import Idealize.ShloMosaic.PureOps.Ideal
import Idealize.ShloMosaic.PureOps.Ideal.Laws
import Idealize.ShloMosaic.Lib.ValueIdx

/-! The mathematics both programs compute for one pooled branch.

A row of the input holds integer words; a segment of `L` consecutive columns of it is read as real numbers
`x₀ … x_{L-1}` (for the intended inputs each is 0 or 1: a multi-hot row). One entry of the branch's result is the
mean-pooled projection `(∑ₖ xₖ · wₖ) / (0 + ∑ₖ xₖ)` on the extended reals, `w` the row of the branch's weight matrix
for that entry. -/

noncomputable section

namespace Cert.Pool

open Idealize.ShloMosaic

/-- A 32-bit integer word read as the real number it denotes (signed). -/
def cv (b : BitVec 32) : EReal := ((b.toInt : ℝ) : EReal)

/-- One entry of a mean-pooled projection of a row segment `x` against the weights `w`:
    the weighted sum divided by the plain sum (taken from the zero word). -/
def pooled {L : ℕ} (x : Fin L → EReal) (w : Fin L → EReal) : EReal :=
  Ideal.div (∑ k, x k * w k) (Ideal.ofBits .f32 0x00000000#32 + ∑ k, x k)

end Cert.Pool

end
-- ==== Proof.RawDef.lean ====
import proofs.«124779_j83743272337681_1_alg».proof.KernelIdeal
import proofs.«124779_j83743272337681_1_alg».proof.Proof.PoolSpec

/-! The product the region computes, as one function of the whole arrays.

Entry (b, q) of the result of the region is the sum over all 10242 columns `n` of the integer input's entry
(b, n), read as a number, times the weight's entry (n, q). -/

noncomputable section

namespace Cert.KernelIdeal.Raw

open Idealize.ShloMosaic Idealize.ShloMosaic.ValueIdx Cert.KernelIdeal

/-- One entry of the product of the integer array (read as numbers) with a weight matrix. -/
def rawAt (x : S16384x10242.Idx → BitVec 32) (w : S10242x128.Idx → EReal) (b : Fin 16384) (q : Fin 128) : EReal :=
  ∑ n : Fin 10242, Cert.Pool.cv (x (ix2 b n)) * w (ix2 n q)

/-- The whole product. -/
def raw (x : S16384x10242.Idx → BitVec 32) (w : S10242x128.Idx → EReal) : S16384x128.Idx → EReal :=
  fun i => rawAt x w (i 0) (i 1)

theorem raw_ix2 (x : S16384x10242.Idx → BitVec 32) (w : S10242x128.Idx → EReal) (b : Fin 16384) (q : Fin 128) :
    raw x w (ix2 b q) = rawAt x w b q := rfl

end Cert.KernelIdeal.Raw

end
-- ==== Proof.Payload.lean ====
import proofs.«124779_j83743272337681_1_alg».proof.Proof.Gen.KernelIdeal.Skeleton
import proofs.«124779_j83743272337681_1_alg».proof.Proof.PoolSpec
import Idealize.ShloMosaic.PureOps.Ideal.Laws
import Idealize.ShloMosaic.Lib.ValueIdx
import Idealize.ShloMosaic.Lib.Pipeline.Value

/-! # The kernel body's payload at one entry

The body converts its block of 256 rows of integer words to numbers, multiplies the block by the 10242 × 128 weight
block and adds the product to a zero accumulator. At the ideal values the conversion is exact, the cast of the weight
block to its own shape is the identity and the product carries no rounding, so the entry `(p, q)` of the result is the
plain sum over the 10242 columns `n` of the number in row `p`, column `n` times the weight in row `n`, column `q`. -/

noncomputable section

namespace Cert.KernelIdeal.Payload

open Cert.KernelIdeal Cert.KernelIdeal.Gen Idealize.ShloMosaic Idealize.ShloMosaic.ValueIdx

/-- The product's dimension record: the left operand's axis 1 is contracted against the right operand's axis 0. -/
abbrev dotD := dot_S256x10242_S10242x128_S256x128_1_0_0_1_n_n

/-- The left operand's row is the result's row. -/
theorem lhs_0 (i : S256x128.Idx) (c : dotD.contr.Idx) : (dotD.lhsIdx i c 0).val = (i 0).val := by
  unfold DotDims.lhsIdx
  rw [dif_neg (show ¬(0 : Fin S256x10242.rank) ∈ dotD.lhsBatch by decide),
    dif_pos (show (0 : Fin S256x10242.rank) ∈ dotD.lhsNonContracting by decide)]
  rfl

/-- The left operand's column is the contraction position. -/
theorem lhs_1 (i : S256x128.Idx) (c : dotD.contr.Idx) : (dotD.lhsIdx i c 1).val = (c ⟨0, by decide⟩).val :=
  dotD.lhsIdx_val_of_single rfl i c

/-- The right operand's row is the contraction position. -/
theorem rhs_0 (i : S256x128.Idx) (c : dotD.contr.Idx) : (dotD.rhsIdx i c 0).val = (c ⟨0, by decide⟩).val :=
  dotD.rhsIdx_val_of_single rfl i c

/-- The right operand's column is the result's column. -/
theorem rhs_1 (i : S256x128.Idx) (c : dotD.contr.Idx) : (dotD.rhsIdx i c 1).val = (i 1).val := by
  unfold DotDims.rhsIdx
  rw [dif_neg (show ¬(1 : Fin S10242x128.rank) ∈ dotD.rhsBatch by decide),
    dif_pos (show (1 : Fin S10242x128.rank) ∈ dotD.rhsNonContracting by decide)]
  rfl

/-- The payload at `(p, q)`: the sum over all 10242 columns of the row's number times the weight. -/
theorem pay_apply (x0 : Vec Ideal S256x10242 .i32) (x1 : Vec Ideal S10242x128 .bf16) (p : Fin 256) (q : Fin 128) :
    k0_pay1 (F := Ideal) x0 x1 (ix2 p q) = ∑ n : Fin 10242, Cert.Pool.cv (x0 (ix2 p n)) * x1 (ix2 n q) := by
  show FloatOps.matmul dotD none (sitofp (F := Ideal) .bf16 x0) (shapeCast S10242x128 x1 _)
    (constant S256x128 .f32 0x00000000#32) (ix2 p q) = _
  rw [shapeCast_self, Ideal.matmul_constant_zero_apply,
    ← Equiv.sum_comp (contrEquiv1 dotD 10242 rfl rfl).symm]
  refine Finset.sum_congr rfl fun k _ => ?_
  have hk := contrEquiv1_symm_val dotD 10242 rfl rfl k
  have el : dotD.lhsIdx (ix2 p q) ((contrEquiv1 dotD 10242 rfl rfl).symm k) = ix2 p k :=
    funext fun a => Fin.ext (by
      match a with
      | ⟨0, _⟩ => exact lhs_0 _ _
      | ⟨1, _⟩ => exact (lhs_1 _ _).trans hk)
  have er : dotD.rhsIdx (ix2 p q) ((contrEquiv1 dotD 10242 rfl rfl).symm k) = ix2 k q :=
    funext fun a => Fin.ext (by
      match a with
      | ⟨0, _⟩ => exact (rhs_0 _ _).trans hk
      | ⟨1, _⟩ => exact rhs_1 _ _)
  rw [el, er]
  rfl

end Cert.KernelIdeal.Payload

end
-- ==== Proof.KernelValue.lean ====
import proofs.«124779_j83743272337681_1_alg».proof.Proof.FrameIdeal
import proofs.«124779_j83743272337681_1_alg».proof.Proof.PoolSpec
import proofs.«124779_j83743272337681_1_alg».proof.Proof.RawDef
import proofs.«124779_j83743272337681_1_alg».proof.Proof.Payload
import Idealize.ShloMosaic.Lib.Pipeline.Value
import Idealize.ShloMosaic.Lib.ValueIdx

/-! The region's result array after the run is the product of the whole arrays.

At grid point `t` the body multiplies rows `256·t … 256·t + 255` of the integer input by the whole weight, so
entry (p, q) of the block it leaves is `∑ₙ x(256·t + p, n) · w(n, q)`: entry (256·t + p, q) of the product of
the whole arrays (`pay_raw`). The write-back at point `t` therefore writes block `t` of that product
(`flushed_eq`); the 64 blocks tile the 16384 rows, row `r` lying in the block of point `r / 256` (`cover`); so the
array ends holding the product (`final`). -/

set_option maxRecDepth 16384

noncomputable section

namespace Cert.KernelIdeal.KV

open Cert.KernelIdeal Cert.KernelIdeal.Gen Cert.KernelIdeal.Fr
open Idealize.ShloMosaic Idealize.ShloMosaic.TcCoe Idealize.ShloMosaic.ValueIdx
open Idealize.SL Idealize.SL.Sem Cert.KernelIdeal.Raw
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

/-- Where each window's block sits at a grid point: the two row-blocked windows at block row `t`, the weight at
    its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The grid has 64 points. -/
theorem t_lt (t : Fin cfg0.N) : t.val < 64 := lt_of_lt_of_eq t.isLt N_0

/-- An entry of the output block at point `t` sits `256·t` rows further down in the result. -/
theorem emb2_apply (t : Fin cfg0.N) (p : Fin 256) (q : Fin 128) :
    ((cfg0.win 2).blk t).view.emb (ix2 p q) = ix2 (⟨t.val * 256 + p.val, by have := t_lt t; omega⟩ : Fin 16384) q := by
  obtain ⟨-, -, -, -, e4, e5⟩ := idx_facts t
  funext a; apply Fin.ext
  match a with
  | ⟨0, _⟩ => show win0_2.index t (0 : Fin 2) * 256 + 1 * p.val = t.val * 256 + p.val; omega
  | ⟨1, _⟩ => show win0_2.index t (1 : Fin 2) * 128 + 1 * q.val = q.val; omega

/-- An entry of the integer block at point `t` sits `256·t` rows further down in the array. -/
theorem emb0_apply (t : Fin cfg0.N) (p : Fin 256) (n : Fin 10242) :
    ((cfg0.win 0).blk t).view.emb (ix2 p n) = ix2 (⟨t.val * 256 + p.val, by have := t_lt t; omega⟩ : Fin 16384) n := by
  obtain ⟨e0, e1, -, -, -, -⟩ := idx_facts t
  funext a; apply Fin.ext
  match a with
  | ⟨0, _⟩ => show win0_0.index t (0 : Fin 2) * 256 + 1 * p.val = t.val * 256 + p.val; omega
  | ⟨1, _⟩ => show win0_0.index t (1 : Fin 2) * 10242 + 1 * n.val = n.val; omega

/-- The weight block is the whole weight at every point. -/
theorem emb1_apply (t : Fin cfg0.N) (n : Fin 10242) (q : Fin 128) :
    ((cfg0.win 1).blk t).view.emb (ix2 n q) = ix2 n q := by
  obtain ⟨-, -, e2, e3, -, -⟩ := idx_facts t
  funext a; apply Fin.ext
  match a with
  | ⟨0, _⟩ => show win0_1.index t (0 : Fin 2) * 10242 + 1 * n.val = n.val; omega
  | ⟨1, _⟩ => show win0_1.index t (1 : Fin 2) * 128 + 1 * q.val = q.val; omega

/-- An entry of the integer block at point `t`, read off the array. -/
theorem iblk0_apply (c : Dev nD) (t : Fin cfg0.N) (p : Fin 256) (n : Fin 10242) :
    iblk m c 0 t (ix2 p n) = V m c main_arg0 (ix2 (⟨t.val * 256 + p.val, by have := t_lt t; omega⟩ : Fin 16384) n) := by
  show V m c main_arg0 (((cfg0.win 0).blk t).view.emb (ix2 p n)) = _
  rw [emb0_apply]

/-- An entry of the weight block at any point, read off the weight. -/
theorem iblk1_apply (c : Dev nD) (t : Fin cfg0.N) (n : Fin 10242) (q : Fin 128) :
    iblk m c 1 t (ix2 n q) = V m c main_v31 (ix2 n q) := by
  show V m c main_v31 (((cfg0.win 1).blk t).view.emb (ix2 n q)) = _
  rw [emb1_apply]

/-- One entry of what the body leaves at point `t`, read where the output block sits in the result. -/
theorem pay_raw (c : Dev nD) (t : Fin cfg0.N) (y : S256x128.Idx) :
    k0_pay1 (iblk m c 0 t) (iblk m c 1 t) y = raw (V m c main_arg0) (V m c main_v31) (((cfg0.win 2).blk t).view.emb y) := by
  obtain ⟨p, q, rfl⟩ : ∃ (p : Fin 256) (q : Fin 128), y = ix2 p q := ⟨y 0, y 1, eq_ix2 y⟩
  rw [emb2_apply]
  refine (Cert.KernelIdeal.Payload.pay_apply (iblk m c 0 t) (iblk m c 1 t) p q).trans ?_
  rw [raw_ix2]
  unfold rawAt
  refine Finset.sum_congr rfl fun n _ => ?_
  rw [iblk0_apply, iblk1_apply]

/-- The write-back of the output block takes the block whole. -/
theorem cut_apply (P : FVec Ideal S256x128 .f32) (t : Fin cfg0.N) (j : ((win0 2).xblock (grid0.coords t)).Idx) :
    (win0 2).cut (grid0.coords t) P j = P j := rfl

/-- Reading a whole-array function through the output block at point `t`. -/
theorem read_blk_apply (R : S16384x128.Idx → EReal) (t : Fin cfg0.N) (j : ((win0 2).xblock (grid0.coords t)).Idx) :
    View.read (Elt Ideal) ((View.whole main_v32).slice ((win0 2).rect t)) R j = R (((cfg0.win 2).blk t).view.emb j) := rfl

/-- What point `t` writes back is block `t` of the product of the whole arrays. -/
theorem flushed_eq (c : Dev nD) (t : Fin cfg0.N) :
    (dats m 0 c).flushed 2 t = ((cfg0.win 2).blk t).view.read (Elt Ideal) (raw (V m c main_arg0) (V m c main_v31)) := by
  show (cfg0.win 2).cut (grid0.coords t) ((dats m 0 c).after 2 t) = _
  rw [after0_2]
  unfold out0_2
  rw [View.canon_unit_zero hz]
  simp only [View.ld_unit_zero (S := S256x10242) hz, View.ld_unit_zero (S := S10242x128) hz]
  have key := pay_raw m c t
  generalize k0_pay1 (iblk m c 0 t) (iblk m c 1 t) = P at key ⊢
  generalize raw (V m c main_arg0) (V m c main_v31) = R at key ⊢
  funext j
  exact (cut_apply P t j).trans ((key j).trans (read_blk_apply R t j).symm)

/-- An index of the result lies in point `t`'s block iff each coordinate lies in the block's range. -/
theorem mem_blk (t : Fin cfg0.N) (i : S16384x128.Idx) :
    i ∈ ((cfg0.win 2).blk t).view.set ↔ ∀ a : Fin 2, win0_2.index t a * S256x128.size a ≤ (i a).val ∧ (i a).val < win0_2.index t a * S256x128.size a + S256x128.size a := by
  show i ∈ ((View.whole main_v32).slice (win0_2.rect t)).set ↔ _
  rw [View.set_slice_whole, Rect.mem_set_unit]
  exact Iff.rfl

/-- Every row of the result belongs to the block of the point `row / 256`. -/
theorem cover (i : S16384x128.Idx) : ∃ t : Fin cfg0.N, (cfg0.win 2).flush t = true ∧ i ∈ ((cfg0.win 2).blk t).view.set := by
  have hi0 : (i 0).val < 16384 := (i 0).isLt
  have hi1 : (i 1).val < 128 := (i 1).isLt
  have hN : grid0.N = 64 := N_0
  have ht : (i 0).val / 256 < cfg0.N := by show _ < grid0.N; rw [hN]; omega
  obtain ⟨-, -, -, -, e4, e5⟩ := idx_facts ⟨(i 0).val / 256, ht⟩
  refine ⟨⟨(i 0).val / 256, ht⟩, flush0_2 _, ?_⟩
  rw [mem_blk]
  intro a
  match a with
  | ⟨0, _⟩ =>
    show win0_2.index ⟨(i 0).val / 256, ht⟩ (0 : Fin 2) * 256 ≤ (i 0).val ∧ (i 0).val < win0_2.index ⟨(i 0).val / 256, ht⟩ (0 : Fin 2) * 256 + 256
    rw [e4]; show (i 0).val / 256 * 256 ≤ (i 0).val ∧ (i 0).val < (i 0).val / 256 * 256 + 256; omega
  | ⟨1, _⟩ =>
    show win0_2.index ⟨(i 0).val / 256, ht⟩ (1 : Fin 2) * 128 ≤ (i 1).val ∧ (i 1).val < win0_2.index ⟨(i 0).val / 256, ht⟩ (1 : Fin 2) * 128 + 128
    rw [e5]; omega

/-- The result array of the region after the run: the product of the whole arrays. -/
theorem final (c : Dev nD) : (dats m 0 c).arrAt 2 cfg0.N = raw (V m c main_arg0) (V m c main_v31) :=
  (dats m 0 c).arrAt_eq_of_cover 2 (raw (V m c main_arg0) (V m c main_v31)) (fun t _ => flushed_eq m c t) cover

end Cert.KernelIdeal.KV

end
-- ==== Proof.WeightDef.lean ====
import proofs.«124779_j83743272337681_1_alg».proof.KernelIdeal

/-! The combined weight matrix, as the kernel's host program builds it.

A 10242 × 128 matrix of zeros into which six pieces are written, one after the other, each at a constant
position: the transposed genre weights at rows 1 … 25, columns 0 … 31, and a column of ones at column 96 of
those rows; the transposed director weights at rows 26 … 2211, columns 32 … 63, ones at column 97; the
transposed actor weights at rows 2212 … 10241, columns 64 … 95, ones at column 98. The result is then
narrowed to the matrix unit's input format, which on the extended reals changes nothing. -/

noncomputable section

namespace Cert.KernelIdeal.Weight

open Idealize.ShloMosaic Cert.KernelIdeal
open Cert.KernelIdeal.Facts₀ Cert.KernelIdeal.Facts

variable {F : FTy → Type} [FloatOps F] [Cert.KernelIdeal.Facts]

/-- The position a piece is written at: the two-word vector (row, column). -/
def at2 (r c : BitVec 32) : IVec S2 32 :=
  concatenate S2 0 [⟨S1, broadcastInDim S1 ![] bcast_S_S1 (constantI S_ 32 r)⟩, ⟨S1, broadcastInDim S1 ![] bcast_S_S1 (constantI S_ 32 c)⟩] concatenates_S1_S1_S2_d0

/-- The combined weight from the three weight matrices. -/
def combined (wg : FVec F S32x25 .f32) (wd : FVec F S32x2186 .f32) (wa : FVec F S32x8030 .f32) : FVec F S10242x128 .bf16 :=
  truncf .bf16
    (Host.scatter scatter_S10242x128_S2_S8030_0_1_01_0 (fun _ b => b)
      (Host.scatter scatter_S10242x128_S2_S8030x32_01_n_01_0 (fun _ b => b)
        (Host.scatter scatter_S10242x128_S2_S2186_0_1_01_0 (fun _ b => b)
          (Host.scatter scatter_S10242x128_S2_S2186x32_01_n_01_0 (fun _ b => b)
            (Host.scatter scatter_S10242x128_S2_S25_0_1_01_0 (fun _ b => b)
              (Host.scatter scatter_S10242x128_S2_S25x32_01_n_01_0 (fun _ b => b)
                (broadcastInDim S10242x128 ![] bcast_S_S10242x128 (constant S_ .f32 0x00000000#32))
                (at2 1#32 0#32)
                (transpose S25x32 [1, 0] wg transposes_S32x25_S25x32_1_0))
              (at2 1#32 96#32)
              (broadcastInDim S25 ![] bcast_S_S25 (constant S_ .f32 0x3F800000#32)))
            (at2 26#32 32#32)
            (transpose S2186x32 [1, 0] wd transposes_S32x2186_S2186x32_1_0))
          (at2 26#32 97#32)
          (broadcastInDim S2186 ![] bcast_S_S2186 (constant S_ .f32 0x3F800000#32)))
        (at2 2212#32 64#32)
        (transpose S8030x32 [1, 0] wa transposes_S32x8030_S8030x32_1_0))
      (at2 2212#32 98#32)
      (broadcastInDim S8030 ![] bcast_S_S8030 (constant S_ .f32 0x3F800000#32)))
    bitsLt_bf16_f32

end Cert.KernelIdeal.Weight

end
-- ==== Proof.HostReads.lean ====
import proofs.«124779_j83743272337681_1_alg».proof.Proof.FrameIdeal
import proofs.«124779_j83743272337681_1_alg».proof.Proof.WeightDef
import proofs.«124779_j83743272337681_1_alg».proof.Proof.RawDef
import Idealize.ShloMosaic.Lib.StableHlo.Run

/-! What the host operations around the region compute.

Before the region the host builds the combined weight from the three weight matrices: the region finds it in the
buffer it reads its second input from (`V_weight`). After the region the host joins four pieces side by side
into the 16384 × 128 result (`tailOf`): rows of the small table chosen by the first column of the integer input
(a negative index counted from the end), each row scaled by `1 / (norm + ε)` when its Euclidean norm exceeds one and
left as it is otherwise; and three 32-column bands of the region's result, each divided by one further column of that
result (columns 96, 97, 98). `tail_v64` says the program's last buffer holds `tailOf` of the two untouched
arguments and the region's result. -/

set_option maxRecDepth 16384

noncomputable section

namespace Cert.KernelIdeal.HostReads

open Cert.KernelIdeal Cert.KernelIdeal.Gen Cert.KernelIdeal.Fr Idealize.ShloMosaic Idealize.ShloMosaic.TcCoe Idealize.SL.Sem
open Idealize.ShloMosaic.StableHlo

variable (m : (ℓ : Loc nD τ sig) → Buf (Elt Ideal) ℓ)

/-! ## The weight as the region finds it -/

/-- The buffer the region reads the weight from holds the combined weight of the three launched weight matrices. -/
theorem V_weight (c : Dev nD) :
    V m c main_v31 = Weight.combined (F := Ideal) (m ((c : Thread nD τ).loc main_arg2)) (m ((c : Thread nD τ).loc main_arg3))
      (m ((c : Thread nD τ).loc main_arg4)) := by
  have e : (V m c main_v31 : S10242x128.Idx → EReal) =
      Weight.combined (F := Ideal) (m ((c : Thread nD τ).loc main_arg2)) (m ((c : Thread nD τ).loc main_arg3))
        (m ((c : Thread nD τ).loc main_arg4)) := by
    dsimp only [V, V0]
    simp only [hostOps0, List.flatten_cons, List.flatten_nil, List.append_nil]
    after_results_simp
    rfl
  exact e

/-! ## The tail as one function -/

/-- The first column of the integer input, as a vector of 16384 words. -/
def rowIndex (x0 : S16384x10242.Idx → BitVec 32) : S16384.Idx → BitVec 32 :=
  shapeCast S16384 (extractStridedSlice S16384x1 ![0, 0] x0 slices_S16384x10242_S16384x1_0_0) shapeCasts_S16384x1_S16384

/-- The row of the small table each of the 16384 rows takes: the first column's word, plus 6 when it is negative. -/
def wrapped (x0 : S16384x10242.Idx → BitVec 32) : S16384x1.Idx → BitVec 32 :=
  broadcastInDim S16384x1 ![0] bcast_S16384_S16384x1_0
    (select (cmpi .slt (rowIndex x0) (broadcastInDim S16384 ![] bcast_S_S16384 (constantI S_ 32 0#32)))
      (addi (rowIndex x0) (broadcastInDim S16384 ![] bcast_S_S16384 (constantI S_ 32 6#32)))
      (rowIndex x0))

/-- The chosen rows of the small table. -/
def gathered (x0 : S16384x10242.Idx → BitVec 32) (x1 : S6x32.Idx → EReal) : FVec Ideal S16384x32 .f32 :=
  Host.gather gather_S6x32_S16384x1_S16384x32_1_0_n_n_0_1_132 x1 (wrapped x0)

/-- The Euclidean norm of each row: the square root of the sum of the squares of its 32 entries. -/
def rowNorm (g : FVec Ideal S16384x32 .f32) : FVec Ideal S16384x1 .f32 :=
  Host.sqrt (F := Ideal) (broadcastInDim S16384x1 ![0] bcast_S16384_S16384x1_0
    (Host.reduceAdd (F := Ideal) (mulf (F := Ideal) g g) (constant (F := Ideal) S_ .f32 0x00000000#32) reducesTo_S16384x32_S16384_d1 h_S_))

/-- The factor of each row: `1 / (norm + ε)` when the norm exceeds one, one otherwise. -/
def rowScale (g : FVec Ideal S16384x32 .f32) : FVec Ideal S16384x1 .f32 :=
  select
    (cmpf (F := Ideal) .ogt (rowNorm g) (broadcastInDim S16384x1 ![] bcast_S_S16384x1 (constant (F := Ideal) S_ .f32 0x3F800000#32)))
    (Host.divf (F := Ideal) (broadcastInDim S16384x1 ![] bcast_S_S16384x1 (constant (F := Ideal) S_ .f32 0x3F800000#32))
      (addf (F := Ideal) (rowNorm g) (broadcastInDim S16384x1 ![] bcast_S_S16384x1 (constant (F := Ideal) S_ .f32 0x33D6BF95#32))))
    (broadcastInDim S16384x1 ![] bcast_S_S16384x1 (constant (F := Ideal) S_ .f32 0x3F800000#32))

/-- The chosen rows, each times its factor. -/
def scaledRows (x0 : S16384x10242.Idx → BitVec 32) (x1 : S6x32.Idx → EReal) : FVec Ideal S16384x32 .f32 :=
  mulf (F := Ideal) (gathered x0 x1) (broadcastInDim S16384x32 ![0, 1] bcast_S16384x1_S16384x32_0_1 (rowScale (gathered x0 x1)))

/-- Columns 0 … 31 of the region's result, each row divided by its entry in column 96. -/
def band0 (r : S16384x128.Idx → EReal) : FVec Ideal S16384x32 .f32 :=
  Host.divf (F := Ideal) (extractStridedSlice S16384x32 ![0, 0] r slices_S16384x128_S16384x32_0_0)
    (broadcastInDim S16384x32 ![0, 1] bcast_S16384x1_S16384x32_0_1 (extractStridedSlice S16384x1 ![0, 96] r slices_S16384x128_S16384x1_0_96))
/-- Columns 32 … 63 of the region's result, each row divided by its entry in column 97. -/
def band1 (r : S16384x128.Idx → EReal) : FVec Ideal S16384x32 .f32 :=
  Host.divf (F := Ideal) (extractStridedSlice S16384x32 ![0, 32] r slices_S16384x128_S16384x32_0_32)
    (broadcastInDim S16384x32 ![0, 1] bcast_S16384x1_S16384x32_0_1 (extractStridedSlice S16384x1 ![0, 97] r slices_S16384x128_S16384x1_0_97))
/-- Columns 64 … 95 of the region's result, each row divided by its entry in column 98. -/
def band2 (r : S16384x128.Idx → EReal) : FVec Ideal S16384x32 .f32 :=
  Host.divf (F := Ideal) (extractStridedSlice S16384x32 ![0, 64] r slices_S16384x128_S16384x32_0_64)
    (broadcastInDim S16384x32 ![0, 1] bcast_S16384x1_S16384x32_0_1 (extractStridedSlice S16384x1 ![0, 98] r slices_S16384x128_S16384x1_0_98))

/-- The program's result from the integer input `x0`, the small table `x1` and the region's result `r`: the scaled
    rows and the three divided bands, side by side. -/
def tailOf (x0 : S16384x10242.Idx → BitVec 32) (x1 : S6x32.Idx → EReal) (r : S16384x128.Idx → EReal) : S16384x128.Idx → EReal :=
  concatenate S16384x128 1 [⟨S16384x32, scaledRows x0 x1⟩, ⟨S16384x32, band0 r⟩, ⟨S16384x32, band1 r⟩, ⟨S16384x32, band2 r⟩]
    concatenates_S16384x32_S16384x32_S16384x32_S16384x32_S16384x128_d1

/-! ## The operations after the region, read at the result -/

/-- The operations after the region but the last one (the joining). -/
def preOps : List (HloOp τ sig (Elt Ideal)) :=
  hostOps1 ++ hostOps1_1 ++ hostOps1_2 ++ hostOps1_3 ++ hostOps1_4.take 2

/-- Running two lists of operations one after the other is running their concatenation. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons o os ih => simp only [List.cons_append, StableHlo.after_cons, ih]

/-- The operations after the gather, but the last one. -/
def restOps : List (HloOp τ sig (Elt Ideal)) :=
  hostOps1_1 ++ hostOps1_2 ++ hostOps1_3 ++ hostOps1_4.take 2

/-- The operations before the joining are the first stretch (it ends with the gather) and then the rest. -/
theorem preOps_eq : preOps = hostOps1 ++ restOps := by
  simp only [preOps, restOps, List.append_assoc]

section Pieces
variable (W : Valuation τ sig (Elt Ideal))

/-- After the first stretch the gather's buffer holds the chosen rows of the small table. -/
theorem first_v53 : (StableHlo.after hostOps1 W (Proc.devRef .tc main_v53) : S16384x32.Idx → EReal)
    = gathered (W (Proc.devRef .tc main_arg0)) (W (Proc.devRef .tc main_arg1)) := by
  simp only [hostOps1]
  after_results_simp
  rfl

/-- From any contents, the later stretches leave in the first piece's buffer the rows found in the gather's buffer,
    each times its factor. The two outlined functions pass their values through buffers of the same type, which
    changes nothing. -/
theorem rest_v63 : (StableHlo.after restOps W (Proc.devRef .tc main_v63) : S16384x32.Idx → EReal)
    = mulf (F := Ideal) (W (Proc.devRef .tc main_v53))
        (broadcastInDim S16384x32 ![0, 1] bcast_S16384x1_S16384x32_0_1 (rowScale (W (Proc.devRef .tc main_v53)))) := by
  simp only [restOps, hostOps1_1, hostOps1_2, hostOps1_3, hostOps1_4, List.take_succ_cons, List.take_zero, List.cons_append, List.nil_append, List.append_assoc]
  after_results_simp
  simp only [TRef.toBuf, TRef.ofBuf, cast_cast, cast_eq]
  unfold rowScale rowNorm
  rfl

/-- From any contents `W`, the first piece's buffer holds the scaled rows of `W`'s integer input and small table. -/
theorem pre_v63 : (StableHlo.after preOps W (Proc.devRef .tc main_v63) : S16384x32.Idx → EReal)
    = scaledRows (W (Proc.devRef .tc main_arg0)) (W (Proc.devRef .tc main_arg1)) := by
  rw [preOps_eq, after_append]
  refine (rest_v63 _).trans ?_
  rw [first_v53 W]
  rfl

/-- The second piece's buffer holds the first divided band of what `W` has as the region's result. -/
theorem pre_v40 : (StableHlo.after preOps W (Proc.devRef .tc main_v40) : S16384x32.Idx → EReal)
    = band0 (W (Proc.devRef .tc main_v32)) := by
  simp only [preOps, hostOps1, hostOps1_1, hostOps1_2, hostOps1_3, hostOps1_4, List.take_succ_cons, List.take_zero, List.cons_append, List.nil_append, List.append_assoc]
  after_results_simp
  rfl

/-- The third piece's buffer holds the second divided band. -/
theorem pre_v42 : (StableHlo.after preOps W (Proc.devRef .tc main_v42) : S16384x32.Idx → EReal)
    = band1 (W (Proc.devRef .tc main_v32)) := by
  simp only [preOps, hostOps1, hostOps1_1, hostOps1_2, hostOps1_3, hostOps1_4, List.take_succ_cons, List.take_zero, List.cons_append, List.nil_append, List.append_assoc]
  after_results_simp
  rfl

/-- The fourth piece's buffer holds the third divided band. -/
theorem pre_v44 : (StableHlo.after preOps W (Proc.devRef .tc main_v44) : S16384x32.Idx → EReal)
    = band2 (W (Proc.devRef .tc main_v32)) := by
  simp only [preOps, hostOps1, hostOps1_1, hostOps1_2, hostOps1_3, hostOps1_4, List.take_succ_cons, List.take_zero, List.cons_append, List.nil_append, List.append_assoc]
  after_results_simp
  rfl

/-- From any contents `W`, the last buffer after all the operations that follow the region is `tailOf` of `W`'s
    integer input, small table and region result. -/
theorem tail_of_valuation :
    (StableHlo.after (List.flatten [hostOps1, hostOps1_1, hostOps1_2, hostOps1_3, hostOps1_4]) W (Proc.devRef .tc main_v64) : S16384x128.Idx → EReal)
      = tailOf (W (Proc.devRef .tc main_arg0)) (W (Proc.devRef .tc main_arg1)) (W (Proc.devRef .tc main_v32)) := by
  have hl : List.flatten [hostOps1, hostOps1_1, hostOps1_2, hostOps1_3, hostOps1_4] = preOps ++ (hostOps1_4 (F := Ideal)).drop 2 := by
    simp only [preOps, List.flatten_cons, List.flatten_nil, List.append_nil, List.append_assoc, List.take_append_drop]
  rw [hl, after_append]
  simp only [hostOps1_4, List.drop_succ_cons, List.drop_zero, StableHlo.after_cons, StableHlo.after_nil]
  rw [StableHlo.nary_result]
  show concatenate S16384x128 1
      ([⟨S16384x32, StableHlo.after preOps W (Proc.devRef .tc main_v63)⟩, ⟨S16384x32, StableHlo.after preOps W (Proc.devRef .tc main_v40)⟩,
        ⟨S16384x32, StableHlo.after preOps W (Proc.devRef .tc main_v42)⟩, ⟨S16384x32, StableHlo.after preOps W (Proc.devRef .tc main_v44)⟩] :
        List ((s : Shape) × (s.Idx → EReal)))
      concatenates_S16384x32_S16384x32_S16384x32_S16384x32_S16384x128_d1 = _
  rw [pre_v63 W, pre_v40 W, pre_v42 W, pre_v44 W]
  rfl

end Pieces

/-- The program's last buffer, when the region's result array holds `A2`: `tailOf` of the launched integer input, the
    launched small table and `A2`. The region leaves its own arrays at what its write-backs left and every other
    buffer as it found it; no operation before the region writes the two arguments. -/
theorem tail_v64 (c : Dev nD) (A2 : S16384x128.Idx → EReal) (hA2 : (Fr.dats m 0 c).arrAt 2 cfg0.N = A2) :
    Pipeline.afterTail₀ cfgs (Fr.dats m) 0 (Fr.V0 m) [hostOps1, hostOps1_1, hostOps1_2, hostOps1_3, hostOps1_4] c main_v64
      = tailOf (m ((c : Thread nD τ).loc main_arg0)) (m ((c : Thread nD τ).loc main_arg1)) A2 := by
  let W : Valuation τ sig (Elt Ideal) :=
    Pipeline.withArrays (cfgs 0).spec c (V0 m c) (fun w => (dats m 0 c).arrAt w (cfgs 0).N)
  have h0 : W (Proc.devRef .tc main_arg0) = m ((c : Thread nD τ).loc main_arg0) :=
    (Pipeline.withArrays_arr spec0 launch0.win.arr_inj c _ _ 0).trans
      (((dats m 0 c).arrAt_in 0 rfl _).trans ((A_eq m c 0).trans (V_main_arg0 m c)))
  have h1 : W (Proc.devRef .tc main_arg1) = m ((c : Thread nD τ).loc main_arg1) :=
    (Pipeline.withArrays_of_ne _ c (V0 m c) _ main_arg1 (by exact (by decide : ∀ w, Pipeline.arrRef spec0 w ≠ main_arg1))).trans
      (V_main_arg1 m c)
  have h2 : W (Proc.devRef .tc main_v32) = A2 :=
    (Pipeline.withArrays_arr spec0 launch0.win.arr_inj c _ _ 2).trans hA2
  calc Pipeline.afterTail₀ cfgs (Fr.dats m) 0 (Fr.V0 m) [hostOps1, hostOps1_1, hostOps1_2, hostOps1_3, hostOps1_4] c main_v64
      = tailOf (W (Proc.devRef .tc main_arg0)) (W (Proc.devRef .tc main_arg1)) (W (Proc.devRef .tc main_v32)) := tail_of_valuation W
    _ = tailOf (m ((c : Thread nD τ).loc main_arg0)) (m ((c : Thread nD τ).loc main_arg1)) A2 := by rw [h0, h1, h2]

end Cert.KernelIdeal.HostReads

end
-- ==== Proof.LibScatterSet.lean ====
import Idealize.ShloMosaic.Lib.ValueIdx

/-! # Reading a "set" scatter at an index

A scatter whose body returns the update (`x.at[…].set(v)`) is a left fold over the update positions: each
position that lands inside the operand overwrites the element it lands on, and a position that lands outside
is dropped. This file reads such a fold at one index of the operand.

* The fold itself, over any list of positions and any landing map: an index no position lands on keeps the
  operand's element (`foldl_set_miss`); an index on which exactly one position of the list lands holds that
  position's update (`foldl_set_hit`).
* The same two statements for `Host.scatter` with any dimension numbers and any shapes
  (`Host.scatter_set_of_miss`, `Host.scatter_set_of_hit`), using that the row-major numbering lists every
  update position.
* When a position lands on an index: exactly when, on every axis, start plus window coordinate is the index's
  coordinate (`ScatterDims.resultIdx?_eq_some_iff`); being inside the operand is then automatic.
* Two families of dimension numbers over a rank-2 operand with ONE start vector `(r, c)`: a rank-2 update
  written as the rectangle whose corner is the start (`setRectDims`), and a rank-1 update written down the one
  column `c` from row `r` (`setColDims`). For each, where a position lands, and the scatter read at `(n, m)`:
  the update's element when `(n, m)` is in the written region, the operand's element otherwise. -/

namespace Idealize.ShloMosaic

open ValueIdx

section Fold
variable {ι κ α : Type} [DecidableEq ι]

/-- A fold of overwriting steps leaves an index untouched when no position of the list lands on it. The step is
    any function that overwrites the landing index of a position that has one (`hsome`) and does nothing for a
    position that has none (`hnone`). -/
theorem foldl_set_miss (step : (ι → α) → κ → (ι → α)) (ρ : κ → Option ι) (upd : κ → α)
    (hsome : ∀ r n i0, ρ n = some i0 → ∀ i', step r n i' = if i' = i0 then upd n else r i')
    (hnone : ∀ r n, ρ n = none → step r n = r)
    (L : List κ) (x : ι → α) (i : ι) (h : ∀ k ∈ L, ρ k ≠ some i) :
    L.foldl step x i = x i := by
  induction L generalizing x with
  | nil => rfl
  | cons a l ih =>
    rw [List.foldl_cons, ih (step x a) (fun k hk => h k (List.mem_cons_of_mem a hk))]
    cases hρ : ρ a with
    | none => rw [hnone x a hρ]
    | some i0 =>
      rw [hsome x a i0 hρ i, if_neg]
      intro hi
      exact h a (List.mem_cons.2 (Or.inl rfl)) (by rw [hρ, hi])

/-- A fold of overwriting steps holds, at an index on which position `k` of the list lands and no other position
    of the list does, the update of `k`: after the last occurrence of `k` nothing lands there any more. -/
theorem foldl_set_hit (step : (ι → α) → κ → (ι → α)) (ρ : κ → Option ι) (upd : κ → α)
    (hsome : ∀ r n i0, ρ n = some i0 → ∀ i', step r n i' = if i' = i0 then upd n else r i')
    (hnone : ∀ r n, ρ n = none → step r n = r)
    (L : List κ) (x : ι → α) (i : ι) (k : κ) (hk : k ∈ L) (hρ : ρ k = some i)
    (huniq : ∀ k' ∈ L, ρ k' = some i → k' = k) :
    L.foldl step x i = upd k := by
  induction L generalizing x with
  | nil => exact absurd hk List.not_mem_nil
  | cons a l ih =>
    rw [List.foldl_cons]
    by_cases hkl : k ∈ l
    · exact ih (step x a) hkl (fun k' hk' => huniq k' (List.mem_cons_of_mem a hk'))
    · have hak : a = k := by
        rcases List.mem_cons.1 hk with h | h
        · exact h.symm
        · exact absurd h hkl
      rw [foldl_set_miss step ρ upd hsome hnone l (step x a) i
        (fun k' hk' hk'ρ => hkl ((huniq k' (List.mem_cons_of_mem a hk') hk'ρ) ▸ hk')), hak,
        hsome x k i hρ i, if_pos rfl]

end Fold

section Scatter
variable {s si u : Shape} {w : Nat} {α : Type}

/-- A set-scatter read at an index `i` on which update position `k` lands, and no other position does, is the
    update's element at `k`. -/
theorem Host.scatter_set_of_hit (d : ScatterDims s si u) (x : s.Idx → α) (idx : IVec si w) (upd : u.Idx → α)
    (i : s.Idx) (k : u.Idx) (hk : d.resultIdx? k idx = some i)
    (huniq : ∀ k', d.resultIdx? k' idx = some i → k' = k) :
    Host.scatter d (fun _ b => b) x idx upd i = upd k := by
  unfold Host.scatter
  refine (foldl_set_hit _ (fun n => d.resultIdx? (u.rowMajor.symm n) idx) (fun n => upd (u.rowMajor.symm n))
    ?_ ?_ _ x i (u.rowMajor k) (List.mem_finRange _) ?_ ?_).trans ?_
  · intro r n i0 h i'
    simp only [h]
  · intro r n h
    simp only [h]
  · simp only [Equiv.symm_apply_apply]; exact hk
  · intro n' _ h
    have := huniq _ h
    rw [← this, Equiv.apply_symm_apply]
  · simp only [Equiv.symm_apply_apply]

/-- A set-scatter read at an index no update position lands on is the operand's element. -/
theorem Host.scatter_set_of_miss (d : ScatterDims s si u) (x : s.Idx → α) (idx : IVec si w) (upd : u.Idx → α)
    (i : s.Idx) (h : ∀ k, d.resultIdx? k idx ≠ some i) :
    Host.scatter d (fun _ b => b) x idx upd i = x i := by
  unfold Host.scatter
  refine foldl_set_miss _ (fun n => d.resultIdx? (u.rowMajor.symm n) idx) (fun n => upd (u.rowMajor.symm n))
    ?_ ?_ _ x i (fun n _ => h _)
  · intro r n i0 h i'
    simp only [h]
  · intro r n h
    simp only [h]

/-- Update position `j` lands on operand index `i` exactly when, on every operand axis, the start (read signed off
    the scatter indices) plus the window coordinate is `i`'s coordinate. The in-bounds condition of the landing
    index follows from `i` being an index of the operand. -/
theorem ScatterDims.resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h a
    split at h
    · rename_i hb
      have := Option.some.inj h
      have hb' := hb a
      rw [← this]
      show _ = ((Int.toNat _ : Nat) : Int)
      omega
    · exact absurd h (by simp)
  · intro h
    have hb : ∀ a, 0 ≤ d.start j idx a + (d.window j a : Int) ∧ d.start j idx a + (d.window j a : Int) < s.size a := by
      intro a
      have := (i a).isLt
      rw [h a]
      omega
    rw [dif_pos hb]
    refine congrArg some (funext fun a => Fin.ext ?_)
    show Int.toNat _ = _
    rw [h a]
    omega

end Scatter

section TwoAxis
variable {A B a b w : Nat} {α : Type}

/-- Dimension numbers of a rank-2 update `a × b` written into a rank-2 operand `A × B` as a rectangle whose
    corner is the ONE start vector `(r, c)`: both update axes are window axes, nothing is inserted, the start
    vector's two words go to the operand's two axes. -/
abbrev setRectDims (A B a b : Nat) (wf : ScatterDims.WF ⟨2, ![A, B]⟩ ⟨1, ![2]⟩ ⟨2, ![a, b]⟩ [0, 1] [] [0, 1] 0) :
    ScatterDims ⟨2, ![A, B]⟩ ⟨1, ![2]⟩ ⟨2, ![a, b]⟩ where
  updateWindowDims := [0, 1]
  insertedWindowDims := []
  scatterDimsToOperandDims := [0, 1]
  indexVectorDim := 0
  wf := wf

/-- Dimension numbers of a rank-1 update of length `a` written into a rank-2 operand `A × B` down ONE column: the
    update's axis is the window on the operand's rows, the operand's column axis is inserted, the start vector
    `(r, c)` names the first row and the column. -/
abbrev setColDims (A B a : Nat) (wf : ScatterDims.WF ⟨2, ![A, B]⟩ ⟨1, ![2]⟩ ⟨1, ![a]⟩ [0] [1] [0, 1] 0) :
    ScatterDims ⟨2, ![A, B]⟩ ⟨1, ![2]⟩ ⟨1, ![a]⟩ where
  updateWindowDims := [0]
  insertedWindowDims := [1]
  scatterDimsToOperandDims := [0, 1]
  indexVectorDim := 0
  wf := wf

/-- Axis 0 is one of the two axes `[0, 1]`. -/
private theorem mem01_0 : (0 : Fin 2) ∈ ([0, 1] : List (Fin 2)) := by decide
/-- Axis 1 is one of the two axes `[0, 1]`. -/
private theorem mem01_1 : (1 : Fin 2) ∈ ([0, 1] : List (Fin 2)) := by decide
/-- With no axis inserted, axis 0 of a rank-2 shape is kept. -/
private theorem keptNil_0 : (0 : Fin 2) ∈ Shape.kept ⟨2, ![0, 0]⟩ ([] : List (Fin 2)) := by decide
/-- With no axis inserted, axis 1 of a rank-2 shape is kept. -/
private theorem keptNil_1 : (1 : Fin 2) ∈ Shape.kept ⟨2, ![0, 0]⟩ ([] : List (Fin 2)) := by decide
/-- With axis 1 inserted, axis 0 of a rank-2 shape is kept. -/
private theorem keptOne_0 : (0 : Fin 2) ∈ Shape.kept ⟨2, ![0, 0]⟩ ([1] : List (Fin 2)) := by decide
/-- With axis 1 inserted, axis 1 of a rank-2 shape is not kept. -/
private theorem keptOne_1 : (1 : Fin 2) ∉ Shape.kept ⟨2, ![0, 0]⟩ ([1] : List (Fin 2)) := by decide

/-- A rectangle's start on the row axis is the start vector's first word, read signed. -/
theorem setRectDims_start0 (wf) (j : (⟨2, ![a, b]⟩ : Shape).Idx) (idx : IVec ⟨1, ![2]⟩ w) :
    (setRectDims A B a b wf).start j idx 0 = (idx (ix1 0)).toInt := by
  unfold ScatterDims.start
  rw [dif_pos (show (0 : Fin (Shape.rank ⟨2, ![A, B]⟩)) ∈ (setRectDims A B a b wf).scatterDimsToOperandDims from mem01_0)]
  refine congrArg (fun k => (idx k).toInt) (funext fun c => Fin.ext ?_)
  match c with
  | ⟨0, _⟩ => rfl

/-- A rectangle's start on the column axis is the start vector's second word, read signed. -/
theorem setRectDims_start1 (wf) (j : (⟨2, ![a, b]⟩ : Shape).Idx) (idx : IVec ⟨1, ![2]⟩ w) :
    (setRectDims A B a b wf).start j idx 1 = (idx (ix1 1)).toInt := by
  unfold ScatterDims.start
  rw [dif_pos (show (1 : Fin (Shape.rank ⟨2, ![A, B]⟩)) ∈ (setRectDims A B a b wf).scatterDimsToOperandDims from mem01_1)]
  refine congrArg (fun k => (idx k).toInt) (funext fun c => Fin.ext ?_)
  match c with
  | ⟨0, _⟩ => rfl

/-- A rectangle's window coordinate on the row axis is the update position's first coordinate. -/
theorem setRectDims_window0 (wf) (j : (⟨2, ![a, b]⟩ : Shape).Idx) :
    (setRectDims A B a b wf).window j 0 = (j 0).val := by
  unfold ScatterDims.window
  rw [dif_pos (show (0 : Fin (Shape.rank ⟨2, ![A, B]⟩)) ∈ (setRectDims A B a b wf).sKept from keptNil_0)]
  rfl

/-- A rectangle's window coordinate on the column axis is the update position's second coordinate. -/
theorem setRectDims_window1 (wf) (j : (⟨2, ![a, b]⟩ : Shape).Idx) :
    (setRectDims A B a b wf).window j 1 = (j 1).val := by
  unfold ScatterDims.window
  rw [dif_pos (show (1 : Fin (Shape.rank ⟨2, ![A, B]⟩)) ∈ (setRectDims A B a b wf).sKept from keptNil_1)]
  rfl

/-- A column's start on the row axis is the start vector's first word, read signed. -/
theorem setColDims_start0 (wf) (j : (⟨1, ![a]⟩ : Shape).Idx) (idx : IVec ⟨1, ![2]⟩ w) :
    (setColDims A B a wf).start j idx 0 = (idx (ix1 0)).toInt := by
  unfold ScatterDims.start
  rw [dif_pos (show (0 : Fin (Shape.rank ⟨2, ![A, B]⟩)) ∈ (setColDims A B a wf).scatterDimsToOperandDims from mem01_0)]
  refine congrArg (fun k => (idx k).toInt) (funext fun c => Fin.ext ?_)
  match c with
  | ⟨0, _⟩ => rfl

/-- A column's start on the column axis is the start vector's second word, read signed. -/
theorem setColDims_start1 (wf) (j : (⟨1, ![a]⟩ : Shape).Idx) (idx : IVec ⟨1, ![2]⟩ w) :
    (setColDims A B a wf).start j idx 1 = (idx (ix1 1)).toInt := by
  unfold ScatterDims.start
  rw [dif_pos (show (1 : Fin (Shape.rank ⟨2, ![A, B]⟩)) ∈ (setColDims A B a wf).scatterDimsToOperandDims from mem01_1)]
  refine congrArg (fun k => (idx k).toInt) (funext fun c => Fin.ext ?_)
  match c with
  | ⟨0, _⟩ => rfl

/-- A column's window coordinate on the row axis is the update position's one coordinate. -/
theorem setColDims_window0 (wf) (j : (⟨1, ![a]⟩ : Shape).Idx) :
    (setColDims A B a wf).window j 0 = (j 0).val := by
  unfold ScatterDims.window
  rw [dif_pos (show (0 : Fin (Shape.rank ⟨2, ![A, B]⟩)) ∈ (setColDims A B a wf).sKept from keptOne_0)]
  rfl

/-- A column's window coordinate on the inserted column axis is zero. -/
theorem setColDims_window1 (wf) (j : (⟨1, ![a]⟩ : Shape).Idx) :
    (setColDims A B a wf).window j 1 = 0 := by
  unfold ScatterDims.window
  rw [dif_neg (show (1 : Fin (Shape.rank ⟨2, ![A, B]⟩)) ∉ (setColDims A B a wf).sKept from keptOne_1)]

/-- Position `(j₀, j₁)` of a rectangle lands on `(i₀, i₁)` exactly when `i₀ = r + j₀` and `i₁ = c + j₁`, with
    `(r, c)` the start vector's two words read signed. -/
theorem setRectDims_resultIdx? (wf) (j : (⟨2, ![a, b]⟩ : Shape).Idx) (idx : IVec ⟨1, ![2]⟩ w)
    (i : (⟨2, ![A, B]⟩ : Shape).Idx) :
    (setRectDims A B a b wf).resultIdx? j idx = some i ↔
      (idx (ix1 0)).toInt + ((j 0).val : Int) = ((i 0).val : Int) ∧
      (idx (ix1 1)).toInt + ((j 1).val : Int) = ((i 1).val : Int) := by
  rw [ScatterDims.resultIdx?_eq_some_iff]
  constructor
  · intro h
    have h0 := h 0
    have h1 := h 1
    rw [setRectDims_start0, setRectDims_window0] at h0
    rw [setRectDims_start1, setRectDims_window1] at h1
    exact ⟨h0, h1⟩
  · intro h c
    match c with
    | ⟨0, _⟩ =>
      show (setRectDims A B a b wf).start j idx 0 + ((setRectDims A B a b wf).window j 0 : Int) = ((i 0).val : Int)
      rw [setRectDims_start0, setRectDims_window0]; exact h.1
    | ⟨1, _⟩ =>
      show (setRectDims A B a b wf).start j idx 1 + ((setRectDims A B a b wf).window j 1 : Int) = ((i 1).val : Int)
      rw [setRectDims_start1, setRectDims_window1]; exact h.2

/-- Position `j₀` of a column lands on `(i₀, i₁)` exactly when `i₀ = r + j₀` and `i₁ = c`, with `(r, c)` the start
    vector's two words read signed. -/
theorem setColDims_resultIdx? (wf) (j : (⟨1, ![a]⟩ : Shape).Idx) (idx : IVec ⟨1, ![2]⟩ w)
    (i : (⟨2, ![A, B]⟩ : Shape).Idx) :
    (setColDims A B a wf).resultIdx? j idx = some i ↔
      (idx (ix1 0)).toInt + ((j 0).val : Int) = ((i 0).val : Int) ∧
      (idx (ix1 1)).toInt = ((i 1).val : Int) := by
  rw [ScatterDims.resultIdx?_eq_some_iff]
  constructor
  · intro h
    have h0 := h 0
    have h1 := h 1
    rw [setColDims_start0, setColDims_window0] at h0
    rw [setColDims_start1, setColDims_window1] at h1
    exact ⟨h0, by simpa using h1⟩
  · intro h c
    match c with
    | ⟨0, _⟩ =>
      show (setColDims A B a wf).start j idx 0 + ((setColDims A B a wf).window j 0 : Int) = ((i 0).val : Int)
      rw [setColDims_start0, setColDims_window0]; exact h.1
    | ⟨1, _⟩ =>
      show (setColDims A B a wf).start j idx 1 + ((setColDims A B a wf).window j 1 : Int) = ((i 1).val : Int)
      rw [setColDims_start1, setColDims_window1]; simpa using h.2

/-- A rectangle written at the start `(r0, c0)`, read inside it: at `(r0 + k0, c0 + k1)` it is the update's element
    at `(k0, k1)`. -/
theorem Host.scatter_setRect_hit (wf) (x : (⟨2, ![A, B]⟩ : Shape).Idx → α) (idx : IVec ⟨1, ![2]⟩ w)
    (upd : (⟨2, ![a, b]⟩ : Shape).Idx → α) (r0 c0 : Nat)
    (hr : (idx (ix1 0)).toInt = (r0 : Int)) (hc : (idx (ix1 1)).toInt = (c0 : Int))
    (n : Fin A) (m : Fin B) (k0 : Fin a) (k1 : Fin b) (hn : n.val = r0 + k0.val) (hm : m.val = c0 + k1.val) :
    Host.scatter (setRectDims A B a b wf) (fun _ b => b) x idx upd (ix2 n m) = upd (ix2 k0 k1) := by
  refine Host.scatter_set_of_hit _ x idx upd (ix2 n m) (ix2 k0 k1) ?_ ?_
  · refine (setRectDims_resultIdx? wf _ idx _).2 ⟨?_, ?_⟩
    · rw [hr]; show (r0 : Int) + (k0.val : Int) = (n.val : Int); omega
    · rw [hc]; show (c0 : Int) + (k1.val : Int) = (m.val : Int); omega
  · intro k' hk'
    obtain ⟨h0, h1⟩ := (setRectDims_resultIdx? wf _ idx _).1 hk'
    rw [hr] at h0; rw [hc] at h1
    have h0' : (r0 : Int) + ((k' 0).val : Int) = (n.val : Int) := h0
    have h1' : (c0 : Int) + ((k' 1).val : Int) = (m.val : Int) := h1
    funext c
    match c with
    | ⟨0, _⟩ => exact Fin.ext (show (k' 0).val = k0.val by omega)
    | ⟨1, _⟩ => exact Fin.ext (show (k' 1).val = k1.val by omega)

/-- A rectangle written at the start `(r0, c0)`, read outside it, is the operand's element. -/
theorem Host.scatter_setRect_miss (wf) (x : (⟨2, ![A, B]⟩ : Shape).Idx → α) (idx : IVec ⟨1, ![2]⟩ w)
    (upd : (⟨2, ![a, b]⟩ : Shape).Idx → α) (r0 c0 : Nat)
    (hr : (idx (ix1 0)).toInt = (r0 : Int)) (hc : (idx (ix1 1)).toInt = (c0 : Int))
    (n : Fin A) (m : Fin B) (h : ¬(r0 ≤ n.val ∧ n.val < r0 + a ∧ c0 ≤ m.val ∧ m.val < c0 + b)) :
    Host.scatter (setRectDims A B a b wf) (fun _ b => b) x idx upd (ix2 n m) = x (ix2 n m) := by
  refine Host.scatter_set_of_miss _ x idx upd (ix2 n m) fun k hk => h ?_
  obtain ⟨h0, h1⟩ := (setRectDims_resultIdx? wf _ idx _).1 hk
  rw [hr] at h0; rw [hc] at h1
  have h0' : (r0 : Int) + ((k 0).val : Int) = (n.val : Int) := h0
  have h1' : (c0 : Int) + ((k 1).val : Int) = (m.val : Int) := h1
  have := idx2_lt0 k
  have := idx2_lt1 k
  omega

/-- A column written at the start `(r0, c0)`, read on it: at `(r0 + k0, c0)` it is the update's element at `k0`. -/
theorem Host.scatter_setCol_hit (wf) (x : (⟨2, ![A, B]⟩ : Shape).Idx → α) (idx : IVec ⟨1, ![2]⟩ w)
    (upd : (⟨1, ![a]⟩ : Shape).Idx → α) (r0 c0 : Nat)
    (hr : (idx (ix1 0)).toInt = (r0 : Int)) (hc : (idx (ix1 1)).toInt = (c0 : Int))
    (n : Fin A) (m : Fin B) (k0 : Fin a) (hn : n.val = r0 + k0.val) (hm : m.val = c0) :
    Host.scatter (setColDims A B a wf) (fun _ b => b) x idx upd (ix2 n m) = upd (ix1 k0) := by
  refine Host.scatter_set_of_hit _ x idx upd (ix2 n m) (ix1 k0) ?_ ?_
  · refine (setColDims_resultIdx? wf _ idx _).2 ⟨?_, ?_⟩
    · rw [hr]; show (r0 : Int) + (k0.val : Int) = (n.val : Int); omega
    · rw [hc]; show (c0 : Int) = (m.val : Int); omega
  · intro k' hk'
    obtain ⟨h0, _⟩ := (setColDims_resultIdx? wf _ idx _).1 hk'
    rw [hr] at h0
    have h0' : (r0 : Int) + ((k' 0).val : Int) = (n.val : Int) := h0
    funext c
    match c with
    | ⟨0, _⟩ => exact Fin.ext (show (k' 0).val = k0.val by omega)

/-- A column written at the start `(r0, c0)`, read off it, is the operand's element. -/
theorem Host.scatter_setCol_miss (wf) (x : (⟨2, ![A, B]⟩ : Shape).Idx → α) (idx : IVec ⟨1, ![2]⟩ w)
    (upd : (⟨1, ![a]⟩ : Shape).Idx → α) (r0 c0 : Nat)
    (hr : (idx (ix1 0)).toInt = (r0 : Int)) (hc : (idx (ix1 1)).toInt = (c0 : Int))
    (n : Fin A) (m : Fin B) (h : ¬(r0 ≤ n.val ∧ n.val < r0 + a ∧ m.val = c0)) :
    Host.scatter (setColDims A B a wf) (fun _ b => b) x idx upd (ix2 n m) = x (ix2 n m) := by
  refine Host.scatter_set_of_miss _ x idx upd (ix2 n m) fun k hk => h ?_
  obtain ⟨h0, h1⟩ := (setColDims_resultIdx? wf _ idx _).1 hk
  rw [hr] at h0; rw [hc] at h1
  have h0' : (r0 : Int) + ((k 0).val : Int) = (n.val : Int) := h0
  have h1' : (c0 : Int) = (m.val : Int) := h1
  have : (k 0).val < a := (k 0).isLt
  omega

end TwoAxis

end Idealize.ShloMosaic
-- ==== Proof.WeightAt.lean ====
import proofs.«124779_j83743272337681_1_alg».proof.Proof.WeightDef
import proofs.«124779_j83743272337681_1_alg».proof.Proof.LibScatterSet
import Idealize.ShloMosaic.Lib.Pipeline.Value
import Idealize.ShloMosaic.PureOps.Ideal.Laws

/-! The combined weight matrix read at an index.

The matrix is a matrix of zeros into which six pieces are written one after the other, each at a constant corner:
three rectangles (the transposed weights) and three columns of ones. The written regions are pairwise disjoint,
so an index inside one of them reads that piece and an index outside all of them reads zero. Each statement below
walks the six writes from the last to the first: a write whose region does not hold the index is skipped, and
the first one that holds it gives the value. -/

noncomputable section

namespace Cert.KernelIdeal.WeightAt

open Idealize.ShloMosaic Idealize.ShloMosaic.ValueIdx Cert.KernelIdeal
open Cert.KernelIdeal.Facts₀ Cert.KernelIdeal.Facts

variable [Cert.KernelIdeal.Facts]

/-- The position vector's first word is the row. -/
theorem at2_0 (r c : BitVec 32) : Weight.at2 r c (ix1 (0 : Fin 2)) = r := rfl
/-- The position vector's second word is the column. -/
theorem at2_1 (r c : BitVec 32) : Weight.at2 r c (ix1 (1 : Fin 2)) = c := rfl

/-- The word 0 read as a signed integer is 0. -/
theorem word_0 : (0#32 : BitVec 32).toInt = ((0 : Nat) : Int) := by decide
/-- The word 1 read as a signed integer is 1. -/
theorem word_1 : (1#32 : BitVec 32).toInt = ((1 : Nat) : Int) := by decide
/-- The word 26 read as a signed integer is 26. -/
theorem word_26 : (26#32 : BitVec 32).toInt = ((26 : Nat) : Int) := by decide
/-- The word 32 read as a signed integer is 32. -/
theorem word_32 : (32#32 : BitVec 32).toInt = ((32 : Nat) : Int) := by decide
/-- The word 64 read as a signed integer is 64. -/
theorem word_64 : (64#32 : BitVec 32).toInt = ((64 : Nat) : Int) := by decide
/-- The word 96 read as a signed integer is 96. -/
theorem word_96 : (96#32 : BitVec 32).toInt = ((96 : Nat) : Int) := by decide
/-- The word 97 read as a signed integer is 97. -/
theorem word_97 : (97#32 : BitVec 32).toInt = ((97 : Nat) : Int) := by decide
/-- The word 98 read as a signed integer is 98. -/
theorem word_98 : (98#32 : BitVec 32).toInt = ((98 : Nat) : Int) := by decide
/-- The word 2212 read as a signed integer is 2212. -/
theorem word_2212 : (2212#32 : BitVec 32).toInt = ((2212 : Nat) : Int) := by decide

section Layers
variable (x : FVec Ideal S10242x128 .f32)

/-- Inside the genre rectangle (rows 1 … 25, columns 0 … 31) the write's element is read. -/
theorem gR_hit (upd : FVec Ideal S25x32 .f32) (n : Fin 10242) (m : Fin 128) (k0 : Fin 25) (k1 : Fin 32)
    (hn : n.val = 1 + k0.val) (hm : m.val = 0 + k1.val) :
    Host.scatter scatter_S10242x128_S2_S25x32_01_n_01_0 (fun _ b => b) x (Weight.at2 1#32 0#32) upd (ix2 n m) = upd (ix2 k0 k1) :=
  Host.scatter_setRect_hit (A := 10242) (B := 128) (a := 25) (b := 32) scatter_S10242x128_S2_S25x32_01_n_01_0_wf x (Weight.at2 1#32 0#32) upd 1 0
    word_1 word_0 n m k0 k1 hn hm
/-- Outside the genre rectangle (rows 1 … 25, columns 0 … 31) the matrix under it is read. -/
theorem gR_miss (upd : FVec Ideal S25x32 .f32) (n : Fin 10242) (m : Fin 128)
    (h : ¬(1 ≤ n.val ∧ n.val < 1 + 25 ∧ 0 ≤ m.val ∧ m.val < 0 + 32)) :
    Host.scatter scatter_S10242x128_S2_S25x32_01_n_01_0 (fun _ b => b) x (Weight.at2 1#32 0#32) upd (ix2 n m) = x (ix2 n m) :=
  Host.scatter_setRect_miss (A := 10242) (B := 128) (a := 25) (b := 32) scatter_S10242x128_S2_S25x32_01_n_01_0_wf x (Weight.at2 1#32 0#32) upd 1 0
    word_1 word_0 n m h
/-- On the genre column of ones (rows 1 … 25, column 96) the write's element is read. -/
theorem gC_hit (upd : FVec Ideal S25 .f32) (n : Fin 10242) (m : Fin 128) (k0 : Fin 25)
    (hn : n.val = 1 + k0.val) (hm : m.val = 96) :
    Host.scatter scatter_S10242x128_S2_S25_0_1_01_0 (fun _ b => b) x (Weight.at2 1#32 96#32) upd (ix2 n m) = upd (ix1 k0) :=
  Host.scatter_setCol_hit (A := 10242) (B := 128) (a := 25) scatter_S10242x128_S2_S25_0_1_01_0_wf x (Weight.at2 1#32 96#32) upd 1 96
    word_1 word_96 n m k0 hn hm
/-- Off the genre column of ones (rows 1 … 25, column 96) the matrix under it is read. -/
theorem gC_miss (upd : FVec Ideal S25 .f32) (n : Fin 10242) (m : Fin 128)
    (h : ¬(1 ≤ n.val ∧ n.val < 1 + 25 ∧ m.val = 96)) :
    Host.scatter scatter_S10242x128_S2_S25_0_1_01_0 (fun _ b => b) x (Weight.at2 1#32 96#32) upd (ix2 n m) = x (ix2 n m) :=
  Host.scatter_setCol_miss (A := 10242) (B := 128) (a := 25) scatter_S10242x128_S2_S25_0_1_01_0_wf x (Weight.at2 1#32 96#32) upd 1 96
    word_1 word_96 n m h
/-- Inside the director rectangle (rows 26 … 2211, columns 32 … 63) the write's element is read. -/
theorem dR_hit (upd : FVec Ideal S2186x32 .f32) (n : Fin 10242) (m : Fin 128) (k0 : Fin 2186) (k1 : Fin 32)
    (hn : n.val = 26 + k0.val) (hm : m.val = 32 + k1.val) :
    Host.scatter scatter_S10242x128_S2_S2186x32_01_n_01_0 (fun _ b => b) x (Weight.at2 26#32 32#32) upd (ix2 n m) = upd (ix2 k0 k1) :=
  Host.scatter_setRect_hit (A := 10242) (B := 128) (a := 2186) (b := 32) scatter_S10242x128_S2_S2186x32_01_n_01_0_wf x (Weight.at2 26#32 32#32) upd 26 32
    word_26 word_32 n m k0 k1 hn hm
/-- Outside the director rectangle (rows 26 … 2211, columns 32 … 63) the matrix under it is read. -/
theorem dR_miss (upd : FVec Ideal S2186x32 .f32) (n : Fin 10242) (m : Fin 128)
    (h : ¬(26 ≤ n.val ∧ n.val < 26 + 2186 ∧ 32 ≤ m.val ∧ m.val < 32 + 32)) :
    Host.scatter scatter_S10242x128_S2_S2186x32_01_n_01_0 (fun _ b => b) x (Weight.at2 26#32 32#32) upd (ix2 n m) = x (ix2 n m) :=
  Host.scatter_setRect_miss (A := 10242) (B := 128) (a := 2186) (b := 32) scatter_S10242x128_S2_S2186x32_01_n_01_0_wf x (Weight.at2 26#32 32#32) upd 26 32
    word_26 word_32 n m h
/-- On the director column of ones (rows 26 … 2211, column 97) the write's element is read. -/
theorem dC_hit (upd : FVec Ideal S2186 .f32) (n : Fin 10242) (m : Fin 128) (k0 : Fin 2186)
    (hn : n.val = 26 + k0.val) (hm : m.val = 97) :
    Host.scatter scatter_S10242x128_S2_S2186_0_1_01_0 (fun _ b => b) x (Weight.at2 26#32 97#32) upd (ix2 n m) = upd (ix1 k0) :=
  Host.scatter_setCol_hit (A := 10242) (B := 128) (a := 2186) scatter_S10242x128_S2_S2186_0_1_01_0_wf x (Weight.at2 26#32 97#32) upd 26 97
    word_26 word_97 n m k0 hn hm
/-- Off the director column of ones (rows 26 … 2211, column 97) the matrix under it is read. -/
theorem dC_miss (upd : FVec Ideal S2186 .f32) (n : Fin 10242) (m : Fin 128)
    (h : ¬(26 ≤ n.val ∧ n.val < 26 + 2186 ∧ m.val = 97)) :
    Host.scatter scatter_S10242x128_S2_S2186_0_1_01_0 (fun _ b => b) x (Weight.at2 26#32 97#32) upd (ix2 n m) = x (ix2 n m) :=
  Host.scatter_setCol_miss (A := 10242) (B := 128) (a := 2186) scatter_S10242x128_S2_S2186_0_1_01_0_wf x (Weight.at2 26#32 97#32) upd 26 97
    word_26 word_97 n m h
/-- Inside the actor rectangle (rows 2212 … 10241, columns 64 … 95) the write's element is read. -/
theorem aR_hit (upd : FVec Ideal S8030x32 .f32) (n : Fin 10242) (m : Fin 128) (k0 : Fin 8030) (k1 : Fin 32)
    (hn : n.val = 2212 + k0.val) (hm : m.val = 64 + k1.val) :
    Host.scatter scatter_S10242x128_S2_S8030x32_01_n_01_0 (fun _ b => b) x (Weight.at2 2212#32 64#32) upd (ix2 n m) = upd (ix2 k0 k1) :=
  Host.scatter_setRect_hit (A := 10242) (B := 128) (a := 8030) (b := 32) scatter_S10242x128_S2_S8030x32_01_n_01_0_wf x (Weight.at2 2212#32 64#32) upd 2212 64
    word_2212 word_64 n m k0 k1 hn hm
/-- Outside the actor rectangle (rows 2212 … 10241, columns 64 … 95) the matrix under it is read. -/
theorem aR_miss (upd : FVec Ideal S8030x32 .f32) (n : Fin 10242) (m : Fin 128)
    (h : ¬(2212 ≤ n.val ∧ n.val < 2212 + 8030 ∧ 64 ≤ m.val ∧ m.val < 64 + 32)) :
    Host.scatter scatter_S10242x128_S2_S8030x32_01_n_01_0 (fun _ b => b) x (Weight.at2 2212#32 64#32) upd (ix2 n m) = x (ix2 n m) :=
  Host.scatter_setRect_miss (A := 10242) (B := 128) (a := 8030) (b := 32) scatter_S10242x128_S2_S8030x32_01_n_01_0_wf x (Weight.at2 2212#32 64#32) upd 2212 64
    word_2212 word_64 n m h
/-- On the actor column of ones (rows 2212 … 10241, column 98) the write's element is read. -/
theorem aC_hit (upd : FVec Ideal S8030 .f32) (n : Fin 10242) (m : Fin 128) (k0 : Fin 8030)
    (hn : n.val = 2212 + k0.val) (hm : m.val = 98) :
    Host.scatter scatter_S10242x128_S2_S8030_0_1_01_0 (fun _ b => b) x (Weight.at2 2212#32 98#32) upd (ix2 n m) = upd (ix1 k0) :=
  Host.scatter_setCol_hit (A := 10242) (B := 128) (a := 8030) scatter_S10242x128_S2_S8030_0_1_01_0_wf x (Weight.at2 2212#32 98#32) upd 2212 98
    word_2212 word_98 n m k0 hn hm
/-- Off the actor column of ones (rows 2212 … 10241, column 98) the matrix under it is read. -/
theorem aC_miss (upd : FVec Ideal S8030 .f32) (n : Fin 10242) (m : Fin 128)
    (h : ¬(2212 ≤ n.val ∧ n.val < 2212 + 8030 ∧ m.val = 98)) :
    Host.scatter scatter_S10242x128_S2_S8030_0_1_01_0 (fun _ b => b) x (Weight.at2 2212#32 98#32) upd (ix2 n m) = x (ix2 n m) :=
  Host.scatter_setCol_miss (A := 10242) (B := 128) (a := 8030) scatter_S10242x128_S2_S8030_0_1_01_0_wf x (Weight.at2 2212#32 98#32) upd 2212 98
    word_2212 word_98 n m h

end Layers

variable (wg : FVec Ideal S32x25 .f32) (wd : FVec Ideal S32x2186 .f32) (wa : FVec Ideal S32x8030 .f32)

/-- Row k + 1, column e, for a genre k and a feature e: the genre weight of (e, k). -/
theorem genre_in (k : Fin 25) (e : Fin 32) :
    Weight.combined wg wd wa (ix2 (⟨k.val + 1, by have := k.isLt; omega⟩ : Fin 10242) (⟨e.val, by have := e.isLt; omega⟩ : Fin 128)) = wg (ix2 e k) := by
  have hk := k.isLt
  have he := e.isLt
  unfold Weight.combined
  refine (truncf_apply (s := S10242x128) (φ := .f32) (ψ := .bf16) _ bitsLt_bf16_f32 _).trans ?_
  refine (aC_miss _ _ _ _ (by first | omega | (dsimp only; omega) | rfl)).trans ?_
  refine (aR_miss _ _ _ _ (by first | omega | (dsimp only; omega) | rfl)).trans ?_
  refine (dC_miss _ _ _ _ (by first | omega | (dsimp only; omega) | rfl)).trans ?_
  refine (dR_miss _ _ _ _ (by first | omega | (dsimp only; omega) | rfl)).trans ?_
  refine (gC_miss _ _ _ _ (by first | omega | (dsimp only; omega) | rfl)).trans ?_
  refine (gR_hit _ _ _ _ k e (by first | omega | (dsimp only; omega) | rfl) (by first | omega | (dsimp only; omega) | rfl)).trans ?_
  exact transpose_apply _ wg _ _ (ix2 e k) (fun b => match b with | ⟨0, _⟩ => rfl | ⟨1, _⟩ => rfl)

/-- Row k + 1, column 96, for a genre k: one. -/
theorem genre_one (k : Fin 25) :
    Weight.combined wg wd wa (ix2 (⟨k.val + 1, by have := k.isLt; omega⟩ : Fin 10242) (⟨96, by omega⟩ : Fin 128)) = Ideal.ofBits .f32 0x3F800000#32 := by
  have hk := k.isLt
  unfold Weight.combined
  refine (truncf_apply (s := S10242x128) (φ := .f32) (ψ := .bf16) _ bitsLt_bf16_f32 _).trans ?_
  refine (aC_miss _ _ _ _ (by first | omega | (dsimp only; omega) | rfl)).trans ?_
  refine (aR_miss _ _ _ _ (by first | omega | (dsimp only; omega) | rfl)).trans ?_
  refine (dC_miss _ _ _ _ (by first | omega | (dsimp only; omega) | rfl)).trans ?_
  refine (dR_miss _ _ _ _ (by first | omega | (dsimp only; omega) | rfl)).trans ?_
  refine (gC_hit _ _ _ _ k (by first | omega | (dsimp only; omega) | rfl) (by first | omega | (dsimp only; omega) | rfl)).trans ?_
  rfl

/-- Outside the genre rows, the genre columns (0 … 31 and 96) hold zero. -/
theorem genre_out (n : Fin 10242) (hn : n.val < 1 ∨ 26 ≤ n.val) (j : Fin 128) (hj : j.val < 32 ∨ j.val = 96) :
    Weight.combined wg wd wa (ix2 n j) = 0 := by
  unfold Weight.combined
  refine (truncf_apply (s := S10242x128) (φ := .f32) (ψ := .bf16) _ bitsLt_bf16_f32 _).trans ?_
  refine (aC_miss _ _ _ _ (by first | omega | (dsimp only; omega) | rfl)).trans ?_
  refine (aR_miss _ _ _ _ (by first | omega | (dsimp only; omega) | rfl)).trans ?_
  refine (dC_miss _ _ _ _ (by first | omega | (dsimp only; omega) | rfl)).trans ?_
  refine (dR_miss _ _ _ _ (by first | omega | (dsimp only; omega) | rfl)).trans ?_
  refine (gC_miss _ _ _ _ (by first | omega | (dsimp only; omega) | rfl)).trans ?_
  refine (gR_miss _ _ _ _ (by first | omega | (dsimp only; omega) | rfl)).trans ?_
  exact Ideal.ofBits_zero_f32

/-- Row k + 26, column e + 32, for a director k and a feature e: the director weight of (e, k). -/
theorem director_in (k : Fin 2186) (e : Fin 32) :
    Weight.combined wg wd wa (ix2 (⟨k.val + 26, by have := k.isLt; omega⟩ : Fin 10242) (⟨e.val + 32, by have := e.isLt; omega⟩ : Fin 128)) = wd (ix2 e k) := by
  have hk := k.isLt
  have he := e.isLt
  unfold Weight.combined
  refine (truncf_apply (s := S10242x128) (φ := .f32) (ψ := .bf16) _ bitsLt_bf16_f32 _).trans ?_
  refine (aC_miss _ _ _ _ (by first | omega | (dsimp only; omega) | rfl)).trans ?_
  refine (aR_miss _ _ _ _ (by first | omega | (dsimp only; omega) | rfl)).trans ?_
  refine (dC_miss _ _ _ _ (by first | omega | (dsimp only; omega) | rfl)).trans ?_
  refine (dR_hit _ _ _ _ k e (by first | omega | (dsimp only; omega) | rfl) (by first | omega | (dsimp only; omega) | rfl)).trans ?_
  exact transpose_apply _ wd _ _ (ix2 e k) (fun b => match b with | ⟨0, _⟩ => rfl | ⟨1, _⟩ => rfl)

/-- Row k + 26, column 97, for a director k: one. -/
theorem director_one (k : Fin 2186) :
    Weight.combined wg wd wa (ix2 (⟨k.val + 26, by have := k.isLt; omega⟩ : Fin 10242) (⟨97, by omega⟩ : Fin 128)) = Ideal.ofBits .f32 0x3F800000#32 := by
  have hk := k.isLt
  unfold Weight.combined
  refine (truncf_apply (s := S10242x128) (φ := .f32) (ψ := .bf16) _ bitsLt_bf16_f32 _).trans ?_
  refine (aC_miss _ _ _ _ (by first | omega | (dsimp only; omega) | rfl)).trans ?_
  refine (aR_miss _ _ _ _ (by first | omega | (dsimp only; omega) | rfl)).trans ?_
  refine (dC_hit _ _ _ _ k (by first | omega | (dsimp only; omega) | rfl) (by first | omega | (dsimp only; omega) | rfl)).trans ?_
  rfl

/-- Outside the director rows, the director columns (32 … 63 and 97) hold zero. -/
theorem director_out (n : Fin 10242) (hn : n.val < 26 ∨ 2212 ≤ n.val) (j : Fin 128) (hj : (32 ≤ j.val ∧ j.val < 64) ∨ j.val = 97) :
    Weight.combined wg wd wa (ix2 n j) = 0 := by
  unfold Weight.combined
  refine (truncf_apply (s := S10242x128) (φ := .f32) (ψ := .bf16) _ bitsLt_bf16_f32 _).trans ?_
  refine (aC_miss _ _ _ _ (by first | omega | (dsimp only; omega) | rfl)).trans ?_
  refine (aR_miss _ _ _ _ (by first | omega | (dsimp only; omega) | rfl)).trans ?_
  refine (dC_miss _ _ _ _ (by first | omega | (dsimp only; omega) | rfl)).trans ?_
  refine (dR_miss _ _ _ _ (by first | omega | (dsimp only; omega) | rfl)).trans ?_
  refine (gC_miss _ _ _ _ (by first | omega | (dsimp only; omega) | rfl)).trans ?_
  refine (gR_miss _ _ _ _ (by first | omega | (dsimp only; omega) | rfl)).trans ?_
  exact Ideal.ofBits_zero_f32

/-- Row k + 2212, column e + 64, for an actor k and a feature e: the actor weight of (e, k). -/
theorem actor_in (k : Fin 8030) (e : Fin 32) :
    Weight.combined wg wd wa (ix2 (⟨k.val + 2212, by have := k.isLt; omega⟩ : Fin 10242) (⟨e.val + 64, by have := e.isLt; omega⟩ : Fin 128)) = wa (ix2 e k) := by
  have hk := k.isLt
  have he := e.isLt
  unfold Weight.combined
  refine (truncf_apply (s := S10242x128) (φ := .f32) (ψ := .bf16) _ bitsLt_bf16_f32 _).trans ?_
  refine (aC_miss _ _ _ _ (by first | omega | (dsimp only; omega) | rfl)).trans ?_
  refine (aR_hit _ _ _ _ k e (by first | omega | (dsimp only; omega) | rfl) (by first | omega | (dsimp only; omega) | rfl)).trans ?_
  exact transpose_apply _ wa _ _ (ix2 e k) (fun b => match b with | ⟨0, _⟩ => rfl | ⟨1, _⟩ => rfl)

/-- Row k + 2212, column 98, for an actor k: one. -/
theorem actor_one (k : Fin 8030) :
    Weight.combined wg wd wa (ix2 (⟨k.val + 2212, by have := k.isLt; omega⟩ : Fin 10242) (⟨98, by omega⟩ : Fin 128)) = Ideal.ofBits .f32 0x3F800000#32 := by
  have hk := k.isLt
  unfold Weight.combined
  refine (truncf_apply (s := S10242x128) (φ := .f32) (ψ := .bf16) _ bitsLt_bf16_f32 _).trans ?_
  refine (aC_hit _ _ _ _ k (by first | omega | (dsimp only; omega) | rfl) (by first | omega | (dsimp only; omega) | rfl)).trans ?_
  rfl

/-- Above the actor rows, the actor columns (64 … 95 and 98) hold zero. -/
theorem actor_out (n : Fin 10242) (hn : n.val < 2212) (j : Fin 128) (hj : (64 ≤ j.val ∧ j.val < 96) ∨ j.val = 98) :
    Weight.combined wg wd wa (ix2 n j) = 0 := by
  unfold Weight.combined
  refine (truncf_apply (s := S10242x128) (φ := .f32) (ψ := .bf16) _ bitsLt_bf16_f32 _).trans ?_
  refine (aC_miss _ _ _ _ (by first | omega | (dsimp only; omega) | rfl)).trans ?_
  refine (aR_miss _ _ _ _ (by first | omega | (dsimp only; omega) | rfl)).trans ?_
  refine (dC_miss _ _ _ _ (by first | omega | (dsimp only; omega) | rfl)).trans ?_
  refine (dR_miss _ _ _ _ (by first | omega | (dsimp only; omega) | rfl)).trans ?_
  refine (gC_miss _ _ _ _ (by first | omega | (dsimp only; omega) | rfl)).trans ?_
  refine (gR_miss _ _ _ _ (by first | omega | (dsimp only; omega) | rfl)).trans ?_
  exact Ideal.ofBits_zero_f32

end Cert.KernelIdeal.WeightAt

end
-- ==== Proof.RefPool.lean ====
import proofs.«124779_j83743272337681_1_alg».proof.Proof.Gen.ReferenceIdeal.Read
import proofs.«124779_j83743272337681_1_alg».proof.Proof.PoolSpec

/-! # The reference's three pooled branches, read at one entry

Each branch of the reference takes a block of consecutive columns of the integer input, reads the words as real
numbers, contracts the block against the branch's weight matrix and divides by the block's row sum. Read at the
entry `(b, e)` this is the mean-pooled projection of row `b`'s block against row `e` of the weights: the weighted
sum over the block divided by zero plus the plain sum over the block. -/

noncomputable section

namespace Cert.ReferenceIdeal.RefPool

open Cert.ReferenceIdeal Cert.ReferenceIdeal.Gen Idealize.ShloMosaic Idealize.ShloMosaic.StableHlo
open Idealize.ShloMosaic.ValueIdx

/-- An entry of the first (columns 1 to 25) block read as a real number: column `k` of the block is column `k + 1` of the input. -/
theorem genre_entry (x0 : (⟨S16384x10242, .i32⟩ : BufTy).Contents (Elt Ideal)) (b : Fin 16384) (k : Fin 25) :
    Read.val_main_v3 (F := Ideal) x0 (ix2 b k)
      = Cert.Pool.cv (x0 (ix2 b (⟨k.val + 1, by omega⟩ : Fin 10242))) := by
  rw [Read.val_main_v3_apply, Read.val_main_v2_apply]
  have hi : Read.idx_main_v2 (ix2 b k) = ix2 b (⟨k.val + 1, by omega⟩ : Fin 10242) :=
    funext fun a => Fin.ext (by match a with | ⟨0, _⟩ => rfl | ⟨1, _⟩ => exact Nat.add_comm 1 k.val)
  rw [hi]
  rfl

/-- The first (columns 1 to 25) branch at the entry `(b, e)`: the block's weighted sum against row `e` of the weights, divided by
    zero plus the block's plain sum. -/
theorem genre_apply (x0 : (⟨S16384x10242, .i32⟩ : BufTy).Contents (Elt Ideal))
    (x2 : (⟨S32x25, .f32⟩ : BufTy).Contents (Elt Ideal)) (b : Fin 16384) (e : Fin 32) :
    Read.val_main_v29 (F := Ideal) x0 x2 (ix2 b e)
      = Cert.Pool.pooled (fun k : Fin 25 => Cert.Pool.cv (x0 (ix2 b (⟨k.val + 1, by omega⟩ : Fin 10242))))
          (fun k : Fin 25 => x2 (ix2 e k)) := by
  have hl (k : Fin 25) : Read.lidx_main_v25 (ix2 b e) k = ix2 b k :=
    funext fun a => Fin.ext (by match a with | ⟨0, _⟩ => rfl | ⟨1, _⟩ => rfl)
  have hr (k : Fin 25) : Read.ridx_main_v25 (ix2 b e) k = ix2 e k :=
    funext fun a => Fin.ext (by match a with | ⟨0, _⟩ => rfl | ⟨1, _⟩ => rfl)
  have hs (k : Fin 25) :
      Read.idx_main_v26 (Read.idx_main_v27 (Read.idx_main_v28 (ix2 b e))) k = ix2 b k :=
    funext fun a => Fin.ext (by match a with | ⟨0, _⟩ => rfl | ⟨1, _⟩ => rfl)
  rw [Read.val_main_v29_apply, Read.val_main_v25_apply, Read.val_main_v28_apply, Read.val_main_v27_apply,
    Read.val_main_v26_apply, Read.val_main_cst_4_apply]
  simp only [hl, hr, hs, genre_entry, Ideal.hostDivf_def, Ideal.ofBits_def]
  rfl

/-- An entry of the second (columns 26 to 2211) block read as a real number: column `k` of the block is column `k + 26` of the input. -/
theorem director_entry (x0 : (⟨S16384x10242, .i32⟩ : BufTy).Contents (Elt Ideal)) (b : Fin 16384) (k : Fin 2186) :
    Read.val_main_v5 (F := Ideal) x0 (ix2 b k)
      = Cert.Pool.cv (x0 (ix2 b (⟨k.val + 26, by omega⟩ : Fin 10242))) := by
  rw [Read.val_main_v5_apply, Read.val_main_v4_apply]
  have hi : Read.idx_main_v4 (ix2 b k) = ix2 b (⟨k.val + 26, by omega⟩ : Fin 10242) :=
    funext fun a => Fin.ext (by match a with | ⟨0, _⟩ => rfl | ⟨1, _⟩ => exact Nat.add_comm 26 k.val)
  rw [hi]
  rfl

/-- The second (columns 26 to 2211) branch at the entry `(b, e)`: the block's weighted sum against row `e` of the weights, divided by
    zero plus the block's plain sum. -/
theorem director_apply (x0 : (⟨S16384x10242, .i32⟩ : BufTy).Contents (Elt Ideal))
    (x3 : (⟨S32x2186, .f32⟩ : BufTy).Contents (Elt Ideal)) (b : Fin 16384) (e : Fin 32) :
    Read.val_main_v34 (F := Ideal) x0 x3 (ix2 b e)
      = Cert.Pool.pooled (fun k : Fin 2186 => Cert.Pool.cv (x0 (ix2 b (⟨k.val + 26, by omega⟩ : Fin 10242))))
          (fun k : Fin 2186 => x3 (ix2 e k)) := by
  have hl (k : Fin 2186) : Read.lidx_main_v30 (ix2 b e) k = ix2 b k :=
    funext fun a => Fin.ext (by match a with | ⟨0, _⟩ => rfl | ⟨1, _⟩ => rfl)
  have hr (k : Fin 2186) : Read.ridx_main_v30 (ix2 b e) k = ix2 e k :=
    funext fun a => Fin.ext (by match a with | ⟨0, _⟩ => rfl | ⟨1, _⟩ => rfl)
  have hs (k : Fin 2186) :
      Read.idx_main_v31 (Read.idx_main_v32 (Read.idx_main_v33 (ix2 b e))) k = ix2 b k :=
    funext fun a => Fin.ext (by match a with | ⟨0, _⟩ => rfl | ⟨1, _⟩ => rfl)
  rw [Read.val_main_v34_apply, Read.val_main_v30_apply, Read.val_main_v33_apply, Read.val_main_v32_apply,
    Read.val_main_v31_apply, Read.val_main_cst_5_apply]
  simp only [hl, hr, hs, director_entry, Ideal.hostDivf_def, Ideal.ofBits_def]
  rfl

/-- An entry of the third (columns 2212 to 10241) block read as a real number: column `k` of the block is column `k + 2212` of the input. -/
theorem actor_entry (x0 : (⟨S16384x10242, .i32⟩ : BufTy).Contents (Elt Ideal)) (b : Fin 16384) (k : Fin 8030) :
    Read.val_main_v7 (F := Ideal) x0 (ix2 b k)
      = Cert.Pool.cv (x0 (ix2 b (⟨k.val + 2212, by omega⟩ : Fin 10242))) := by
  rw [Read.val_main_v7_apply, Read.val_main_v6_apply]
  have hi : Read.idx_main_v6 (ix2 b k) = ix2 b (⟨k.val + 2212, by omega⟩ : Fin 10242) :=
    funext fun a => Fin.ext (by match a with | ⟨0, _⟩ => rfl | ⟨1, _⟩ => exact Nat.add_comm 2212 k.val)
  rw [hi]
  rfl

/-- The third (columns 2212 to 10241) branch at the entry `(b, e)`: the block's weighted sum against row `e` of the weights, divided by
    zero plus the block's plain sum. -/
theorem actor_apply (x0 : (⟨S16384x10242, .i32⟩ : BufTy).Contents (Elt Ideal))
    (x4 : (⟨S32x8030, .f32⟩ : BufTy).Contents (Elt Ideal)) (b : Fin 16384) (e : Fin 32) :
    Read.val_main_v39 (F := Ideal) x0 x4 (ix2 b e)
      = Cert.Pool.pooled (fun k : Fin 8030 => Cert.Pool.cv (x0 (ix2 b (⟨k.val + 2212, by omega⟩ : Fin 10242))))
          (fun k : Fin 8030 => x4 (ix2 e k)) := by
  have hl (k : Fin 8030) : Read.lidx_main_v35 (ix2 b e) k = ix2 b k :=
    funext fun a => Fin.ext (by match a with | ⟨0, _⟩ => rfl | ⟨1, _⟩ => rfl)
  have hr (k : Fin 8030) : Read.ridx_main_v35 (ix2 b e) k = ix2 e k :=
    funext fun a => Fin.ext (by match a with | ⟨0, _⟩ => rfl | ⟨1, _⟩ => rfl)
  have hs (k : Fin 8030) :
      Read.idx_main_v36 (Read.idx_main_v37 (Read.idx_main_v38 (ix2 b e))) k = ix2 b k :=
    funext fun a => Fin.ext (by match a with | ⟨0, _⟩ => rfl | ⟨1, _⟩ => rfl)
  rw [Read.val_main_v39_apply, Read.val_main_v35_apply, Read.val_main_v38_apply, Read.val_main_v37_apply,
    Read.val_main_v36_apply, Read.val_main_cst_6_apply]
  simp only [hl, hr, hs, actor_entry, Ideal.hostDivf_def, Ideal.ofBits_def]
  rfl

end Cert.ReferenceIdeal.RefPool

end
-- ==== Proof.LibSegmentSum.lean ====
import Mathlib.Algebra.BigOperators.Fin

/-! # A finite sum of a function supported on a window

A function on the first `N` naturals that is zero outside the window `[o, o + L)` has the same sum over all of
`Fin N` as over the window alone, the window being indexed by `Fin L` through `k ↦ o + k`. The sizes stay
variables throughout: nothing here enumerates an index type. -/

namespace Cert.Lib.SegmentSum

/-- The window `[o, o + L)` inside `Fin N`, as an embedding of `Fin L`: `k ↦ o + k`. -/
def window {N : ℕ} (o L : ℕ) (h : o + L ≤ N) : Fin L ↪ Fin N where
  toFun k := ⟨o + k.val, by omega⟩
  inj' a b hab := Fin.ext (by
    have : o + a.val = o + b.val := congrArg Fin.val hab
    omega)

@[simp] theorem window_val {N : ℕ} (o L : ℕ) (h : o + L ≤ N) (k : Fin L) :
    (window o L h k).val = o + k.val := rfl

/-- An index of `Fin N` lies in the image of the window exactly when its value lies in `[o, o + L)`. -/
theorem mem_map_window {N : ℕ} (o L : ℕ) (h : o + L ≤ N) (n : Fin N) :
    n ∈ Finset.univ.map (window o L h) ↔ o ≤ n.val ∧ n.val < o + L := by
  rw [Finset.mem_map]
  constructor
  · rintro ⟨k, _, rfl⟩
    exact ⟨Nat.le_add_right _ _, Nat.add_lt_add_left k.isLt _⟩
  · rintro ⟨h1, h2⟩
    exact ⟨⟨n.val - o, by omega⟩, Finset.mem_univ _, Fin.ext (by show o + (n.val - o) = n.val; omega)⟩

/-- A sum over `Fin N` of a function that vanishes off the window `[o, o + L)` is the sum over the window. -/
theorem sum_eq_sum_segment {M : Type*} [AddCommMonoid M] {N : ℕ} (o L : ℕ) (h : o + L ≤ N) (f : Fin N → M)
    (hz : ∀ n : Fin N, (n.val < o ∨ o + L ≤ n.val) → f n = 0) :
    ∑ n : Fin N, f n = ∑ k : Fin L, f ⟨o + k.val, by omega⟩ := by
  have hmap : ∑ k : Fin L, f ⟨o + k.val, by omega⟩ = ∑ n ∈ Finset.univ.map (window o L h), f n :=
    (Finset.sum_map Finset.univ (window o L h) f).symm
  rw [hmap]
  refine (Finset.sum_subset (Finset.subset_univ _) fun n _ hn => hz n ?_).symm
  rw [mem_map_window] at hn
  omega

end Cert.Lib.SegmentSum
-- ==== Proof.LibFloatWords.lean ====
import Idealize.ShloMosaic.PureOps.Ideal

/-! # Float bit patterns as the extended reals they denote

A 32-bit pattern is read as an IEEE single: sign, eight exponent bits, twenty-three fraction bits. The pattern
`0x3F800000` has sign 0, biased exponent 127 and fraction 0, so it denotes `2 ^ 0 · 1 = 1`. The pattern is
unfolded once here so that its users cite the equation and never open the decoding themselves. -/

noncomputable section

namespace Cert.Lib.FloatWords

open Idealize.ShloMosaic

/-- The single-precision pattern of `1.0` denotes the extended real `1`. -/
theorem ofBits_one_f32 : Ideal.ofBits .f32 0x3F800000#32 = (1 : EReal) := by
  simp [Ideal.ofBits, Ideal.ieee, -EReal.coe_mul]
  norm_num

end Cert.Lib.FloatWords

end
-- ==== Proof.PoolLaw.lean ====
import proofs.«124779_j83743272337681_1_alg».proof.Proof.PoolSpec
import proofs.«124779_j83743272337681_1_alg».proof.Proof.LibSegmentSum
import proofs.«124779_j83743272337681_1_alg».proof.Proof.LibFloatWords

/-! # A quotient of two full-width weighted sums is a mean-pooled projection

Let `X` be a row of `N` extended reals and let two weight columns `Wcol`, `Wcnt` of the same length vanish outside
the window `[o, o + L)`. Inside the window `Wcol` carries the weights `w` and `Wcnt` is constantly one. Then
`∑ X · Wcol` is the window's weighted sum and `∑ X · Wcnt` is the window's plain sum, because `a · 0 = 0` for every
extended real `a` (infinite ones included) and `a · 1 = a`. Their quotient is therefore the pooled projection of the
window, whose denominator is written as zero plus the plain sum. -/

noncomputable section

namespace Cert.Pool

open Idealize.ShloMosaic

/-- A weighted sum over `Fin N` against weights that vanish off the window `[o, o + L)` is the weighted sum over the
    window, the window's entries being addressed as `k + o`. -/
theorem sum_mul_eq_sum_window {N : ℕ} (o L : ℕ) (h : o + L ≤ N) (X W : Fin N → EReal)
    (hout : ∀ n : Fin N, (n.val < o ∨ o + L ≤ n.val) → W n = 0) :
    ∑ n, X n * W n = ∑ k : Fin L, X ⟨k.val + o, by omega⟩ * W ⟨k.val + o, by omega⟩ := by
  refine (Cert.Lib.SegmentSum.sum_eq_sum_segment o L h (fun n => X n * W n)
    (fun n hn => by rw [hout n hn, mul_zero])).trans ?_
  refine Finset.sum_congr rfl fun k _ => ?_
  have e : (⟨o + k.val, by omega⟩ : Fin N) = ⟨k.val + o, by omega⟩ := Fin.ext (Nat.add_comm _ _)
  show X _ * W _ = _
  rw [e]

/-- The quotient of the two full-width weighted sums is the pooled projection of the window. -/
theorem div_sums_eq_pooled {N : ℕ} (o L : ℕ) (h : o + L ≤ N) (X Wcol Wcnt : Fin N → EReal) (w : Fin L → EReal)
    (hin : ∀ k : Fin L, Wcol ⟨k.val + o, by omega⟩ = w k)
    (hout : ∀ n : Fin N, (n.val < o ∨ o + L ≤ n.val) → Wcol n = 0)
    (hone : ∀ k : Fin L, Wcnt ⟨k.val + o, by omega⟩ = Ideal.ofBits .f32 0x3F800000#32)
    (hzero : ∀ n : Fin N, (n.val < o ∨ o + L ≤ n.val) → Wcnt n = 0) :
    Ideal.div (∑ n, X n * Wcol n) (∑ n, X n * Wcnt n)
      = Cert.Pool.pooled (fun k : Fin L => X ⟨k.val + o, by omega⟩) w := by
  have hnum : ∑ n, X n * Wcol n = ∑ k : Fin L, X ⟨k.val + o, by omega⟩ * w k := by
    rw [sum_mul_eq_sum_window o L h X Wcol hout]
    exact Finset.sum_congr rfl fun k _ => by rw [hin k]
  have hden : ∑ n, X n * Wcnt n = ∑ k : Fin L, X ⟨k.val + o, by omega⟩ := by
    rw [sum_mul_eq_sum_window o L h X Wcnt hzero]
    exact Finset.sum_congr rfl fun k _ => by rw [hone k, Cert.Lib.FloatWords.ofBits_one_f32, mul_one]
  rw [hnum, hden]
  unfold Cert.Pool.pooled
  rw [Ideal.ofBits_zero_f32, zero_add]

end Cert.Pool

end
-- ==== Proof.Branches.lean ====
import proofs.«124779_j83743272337681_1_alg».proof.Proof.Gen.KernelIdeal
import proofs.«124779_j83743272337681_1_alg».proof.Proof.RawDef
import proofs.«124779_j83743272337681_1_alg».proof.Proof.WeightDef
import proofs.«124779_j83743272337681_1_alg».proof.Proof.WeightAt
import proofs.«124779_j83743272337681_1_alg».proof.Proof.RefPool
import proofs.«124779_j83743272337681_1_alg».proof.Proof.PoolLaw
import Idealize.ShloMosaic.Lib.Pipeline.Value
import Idealize.ShloMosaic.Lib.IdealHost
import Idealize.ShloMosaic.Lib.ValueIdx

/-! # The three pooled branches of the kernel's tail are the reference's

The region leaves the full product `R` of the integer input (read as numbers) with the combined weight matrix. The
tail cuts a block of 32 columns out of `R` and divides it, entry by entry, by one further column of `R` repeated
across the block. In the combined weight matrix the block's columns carry a branch's weights on the branch's rows and
zero elsewhere, and the further column carries one on those rows and zero elsewhere. So the block's entry is the
branch's weighted sum, the further column's entry is the branch's plain sum, and the quotient is the mean-pooled
projection that the reference computes for the branch. -/

noncomputable section

namespace Cert.KernelIdeal.Branches

open Cert.KernelIdeal Cert.KernelIdeal.Gen Idealize.ShloMosaic Idealize.ShloMosaic.ValueIdx

/-! ## Reading the tail's layout operations at an entry

These hold for any 16384 × 128 array `R`: they only move indices. -/

section Reads
variable (R : S16384x128.Idx → EReal)

/-- The block of 32 columns starting at column 0, read at `(b, e)`, is `R` at `(b, e)`. -/
theorem block0_at (b : Fin 16384) (e : Fin 32) :
    extractStridedSlice S16384x32 ![0, 0] R slices_S16384x128_S16384x32_0_0 (ix2 b e)
      = R (ix2 b (⟨e.val, by omega⟩ : Fin 128)) :=
  have he := e.isLt
  extractStridedSlice_apply ![0, 0] R slices_S16384x128_S16384x32_0_0 (ix2 b e) (ix2 b (⟨e.val, by omega⟩ : Fin 128))
    (fun a => match a with
      | ⟨0, _⟩ => by show b.val = 0 + b.val; omega
      | ⟨1, _⟩ => by show e.val = 0 + e.val; omega)

/-- The block of 32 columns starting at column 32, read at `(b, e)`, is `R` at `(b, e + 32)`. -/
theorem block32_at (b : Fin 16384) (e : Fin 32) :
    extractStridedSlice S16384x32 ![0, 32] R slices_S16384x128_S16384x32_0_32 (ix2 b e)
      = R (ix2 b (⟨e.val + 32, by omega⟩ : Fin 128)) :=
  have he := e.isLt
  extractStridedSlice_apply ![0, 32] R slices_S16384x128_S16384x32_0_32 (ix2 b e) (ix2 b (⟨e.val + 32, by omega⟩ : Fin 128))
    (fun a => match a with
      | ⟨0, _⟩ => by show b.val = 0 + b.val; omega
      | ⟨1, _⟩ => by show e.val + 32 = 32 + e.val; omega)

/-- The block of 32 columns starting at column 64, read at `(b, e)`, is `R` at `(b, e + 64)`. -/
theorem block64_at (b : Fin 16384) (e : Fin 32) :
    extractStridedSlice S16384x32 ![0, 64] R slices_S16384x128_S16384x32_0_64 (ix2 b e)
      = R (ix2 b (⟨e.val + 64, by omega⟩ : Fin 128)) :=
  have he := e.isLt
  extractStridedSlice_apply ![0, 64] R slices_S16384x128_S16384x32_0_64 (ix2 b e) (ix2 b (⟨e.val + 64, by omega⟩ : Fin 128))
    (fun a => match a with
      | ⟨0, _⟩ => by show b.val = 0 + b.val; omega
      | ⟨1, _⟩ => by show e.val + 64 = 64 + e.val; omega)

/-- Column 96 repeated across a block of 32 columns, read at `(b, e)`, is `R` at `(b, 96)`. -/
theorem col96_at (b : Fin 16384) (e : Fin 32) :
    broadcastInDim S16384x32 ![0, 1] bcast_S16384x1_S16384x32_0_1
        (extractStridedSlice S16384x1 ![0, 96] R slices_S16384x128_S16384x1_0_96) (ix2 b e)
      = R (ix2 b (⟨96, by omega⟩ : Fin 128)) :=
  (broadcastInDim_apply ![0, 1] bcast_S16384x1_S16384x32_0_1 _ (ix2 b e) (ix2 b (0 : Fin 1)) (fun a => match a with
      | ⟨0, _⟩ => by show b.val = if (16384 : Nat) = 1 then 0 else b.val; rw [if_neg (by decide)]
      | ⟨1, _⟩ => by show 0 = if (1 : Nat) = 1 then 0 else e.val; rw [if_pos rfl])).trans
    (extractStridedSlice_apply ![0, 96] R slices_S16384x128_S16384x1_0_96
      (ix2 b (0 : Fin 1)) (ix2 b (⟨96, by omega⟩ : Fin 128)) (fun a => match a with
        | ⟨0, _⟩ => by show b.val = 0 + b.val; omega
        | ⟨1, _⟩ => by show 96 = 96 + 0; rfl))

/-- Column 97 repeated across a block of 32 columns, read at `(b, e)`, is `R` at `(b, 97)`. -/
theorem col97_at (b : Fin 16384) (e : Fin 32) :
    broadcastInDim S16384x32 ![0, 1] bcast_S16384x1_S16384x32_0_1
        (extractStridedSlice S16384x1 ![0, 97] R slices_S16384x128_S16384x1_0_97) (ix2 b e)
      = R (ix2 b (⟨97, by omega⟩ : Fin 128)) :=
  (broadcastInDim_apply ![0, 1] bcast_S16384x1_S16384x32_0_1 _ (ix2 b e) (ix2 b (0 : Fin 1)) (fun a => match a with
      | ⟨0, _⟩ => by show b.val = if (16384 : Nat) = 1 then 0 else b.val; rw [if_neg (by decide)]
      | ⟨1, _⟩ => by show 0 = if (1 : Nat) = 1 then 0 else e.val; rw [if_pos rfl])).trans
    (extractStridedSlice_apply ![0, 97] R slices_S16384x128_S16384x1_0_97
      (ix2 b (0 : Fin 1)) (ix2 b (⟨97, by omega⟩ : Fin 128)) (fun a => match a with
        | ⟨0, _⟩ => by show b.val = 0 + b.val; omega
        | ⟨1, _⟩ => by show 97 = 97 + 0; rfl))

/-- Column 98 repeated across a block of 32 columns, read at `(b, e)`, is `R` at `(b, 98)`. -/
theorem col98_at (b : Fin 16384) (e : Fin 32) :
    broadcastInDim S16384x32 ![0, 1] bcast_S16384x1_S16384x32_0_1
        (extractStridedSlice S16384x1 ![0, 98] R slices_S16384x128_S16384x1_0_98) (ix2 b e)
      = R (ix2 b (⟨98, by omega⟩ : Fin 128)) :=
  (broadcastInDim_apply ![0, 1] bcast_S16384x1_S16384x32_0_1 _ (ix2 b e) (ix2 b (0 : Fin 1)) (fun a => match a with
      | ⟨0, _⟩ => by show b.val = if (16384 : Nat) = 1 then 0 else b.val; rw [if_neg (by decide)]
      | ⟨1, _⟩ => by show 0 = if (1 : Nat) = 1 then 0 else e.val; rw [if_pos rfl])).trans
    (extractStridedSlice_apply ![0, 98] R slices_S16384x128_S16384x1_0_98
      (ix2 b (0 : Fin 1)) (ix2 b (⟨98, by omega⟩ : Fin 128)) (fun a => match a with
        | ⟨0, _⟩ => by show b.val = 0 + b.val; omega
        | ⟨1, _⟩ => by show 98 = 98 + 0; rfl))

end Reads

/-! ## One branch against an arbitrary weight matrix

The weight matrix is a variable here; only its values on two columns matter. -/

/-- If column `cin` of the weight matrix carries `w` on the rows `[o, o + L)` and zero elsewhere, and column `ccnt`
    carries one on those rows and zero elsewhere, then the product's entry at `(b, cin)` divided by its entry at
    `(b, ccnt)` is the pooled projection of row `b`'s window against `w`. -/
theorem branch_core (x0 : S16384x10242.Idx → BitVec 32) (W : S10242x128.Idx → EReal) (b : Fin 16384)
    (o L : ℕ) (h : o + L ≤ 10242) (cin ccnt : Fin 128) (w : Fin L → EReal)
    (hin : ∀ k : Fin L, W (ix2 (⟨k.val + o, by omega⟩ : Fin 10242) cin) = w k)
    (hout : ∀ n : Fin 10242, (n.val < o ∨ o + L ≤ n.val) → W (ix2 n cin) = 0)
    (hone : ∀ k : Fin L, W (ix2 (⟨k.val + o, by omega⟩ : Fin 10242) ccnt) = Ideal.ofBits .f32 0x3F800000#32)
    (hzero : ∀ n : Fin 10242, (n.val < o ∨ o + L ≤ n.val) → W (ix2 n ccnt) = 0) :
    Ideal.div (Raw.raw x0 W (ix2 b cin)) (Raw.raw x0 W (ix2 b ccnt))
      = Cert.Pool.pooled (fun k : Fin L => Cert.Pool.cv (x0 (ix2 b (⟨k.val + o, by omega⟩ : Fin 10242)))) w := by
  rw [Raw.raw_ix2, Raw.raw_ix2]
  unfold Raw.rawAt
  exact Cert.Pool.div_sums_eq_pooled o L h (fun n : Fin 10242 => Cert.Pool.cv (x0 (ix2 b n)))
    (fun n : Fin 10242 => W (ix2 n cin)) (fun n : Fin 10242 => W (ix2 n ccnt)) w hin hout hone hzero

/-! ## The three branches -/

/-- The first branch: columns 0 to 31 of the product divided by column 96 give the reference's stage. -/
theorem genre (x0 : S16384x10242.Idx → BitVec 32) (x2 : FVec Ideal S32x25 .f32) (x3 : FVec Ideal S32x2186 .f32)
    (x4 : FVec Ideal S32x8030 .f32) :
    Host.divf (F := Ideal) (φ := .f32)
        (extractStridedSlice S16384x32 ![0, 0] (Raw.raw x0 (Weight.combined x2 x3 x4)) slices_S16384x128_S16384x32_0_0)
        (broadcastInDim S16384x32 ![0, 1] bcast_S16384x1_S16384x32_0_1
          (extractStridedSlice S16384x1 ![0, 96] (Raw.raw x0 (Weight.combined x2 x3 x4)) slices_S16384x128_S16384x1_0_96))
      = Cert.ReferenceIdeal.Read.val_main_v29 (F := Ideal) x0 x2 := by
  funext i
  obtain ⟨b, e, rfl⟩ : ∃ (b : Fin 16384) (e : Fin 32), i = ix2 b e := ⟨i 0, i 1, eq_ix2 i⟩
  have he := e.isLt
  refine Eq.trans ?_ (Cert.ReferenceIdeal.RefPool.genre_apply x0 x2 b e).symm
  refine (hostDivf_apply _ _ (ix2 b e)).trans ?_
  refine (congrArg₂ Ideal.div (block0_at _ b e) (col96_at _ b e)).trans ?_
  have hin := fun k => WeightAt.genre_in x2 x3 x4 k e
  have hone := fun k => WeightAt.genre_one x2 x3 x4 k
  have hout := fun n hn j hj => WeightAt.genre_out x2 x3 x4 n hn j hj
  generalize Weight.combined x2 x3 x4 = W at hin hone hout ⊢
  exact branch_core x0 W b 1 25 (by omega) (⟨e.val, by omega⟩ : Fin 128) (⟨96, by omega⟩ : Fin 128)
    (fun k : Fin 25 => x2 (ix2 e k)) hin
    (fun n hn => hout n (by have := n.isLt; omega) _ (Or.inl (by show e.val < 32; omega)))
    hone
    (fun n hn => hout n (by have := n.isLt; omega) _ (Or.inr rfl))

/-- The second branch: columns 32 to 63 of the product divided by column 97 give the reference's stage. -/
theorem director (x0 : S16384x10242.Idx → BitVec 32) (x2 : FVec Ideal S32x25 .f32) (x3 : FVec Ideal S32x2186 .f32)
    (x4 : FVec Ideal S32x8030 .f32) :
    Host.divf (F := Ideal) (φ := .f32)
        (extractStridedSlice S16384x32 ![0, 32] (Raw.raw x0 (Weight.combined x2 x3 x4)) slices_S16384x128_S16384x32_0_32)
        (broadcastInDim S16384x32 ![0, 1] bcast_S16384x1_S16384x32_0_1
          (extractStridedSlice S16384x1 ![0, 97] (Raw.raw x0 (Weight.combined x2 x3 x4)) slices_S16384x128_S16384x1_0_97))
      = Cert.ReferenceIdeal.Read.val_main_v34 (F := Ideal) x0 x3 := by
  funext i
  obtain ⟨b, e, rfl⟩ : ∃ (b : Fin 16384) (e : Fin 32), i = ix2 b e := ⟨i 0, i 1, eq_ix2 i⟩
  have he := e.isLt
  refine Eq.trans ?_ (Cert.ReferenceIdeal.RefPool.director_apply x0 x3 b e).symm
  refine (hostDivf_apply _ _ (ix2 b e)).trans ?_
  refine (congrArg₂ Ideal.div (block32_at _ b e) (col97_at _ b e)).trans ?_
  have hin := fun k => WeightAt.director_in x2 x3 x4 k e
  have hone := fun k => WeightAt.director_one x2 x3 x4 k
  have hout := fun n hn j hj => WeightAt.director_out x2 x3 x4 n hn j hj
  generalize Weight.combined x2 x3 x4 = W at hin hone hout ⊢
  exact branch_core x0 W b 26 2186 (by omega) (⟨e.val + 32, by omega⟩ : Fin 128) (⟨97, by omega⟩ : Fin 128)
    (fun k : Fin 2186 => x3 (ix2 e k)) hin
    (fun n hn => hout n (by have := n.isLt; omega) _ (Or.inl (by show 32 ≤ e.val + 32 ∧ e.val + 32 < 64; omega)))
    hone
    (fun n hn => hout n (by have := n.isLt; omega) _ (Or.inr rfl))

/-- The third branch: columns 64 to 95 of the product divided by column 98 give the reference's stage. -/
theorem actor (x0 : S16384x10242.Idx → BitVec 32) (x2 : FVec Ideal S32x25 .f32) (x3 : FVec Ideal S32x2186 .f32)
    (x4 : FVec Ideal S32x8030 .f32) :
    Host.divf (F := Ideal) (φ := .f32)
        (extractStridedSlice S16384x32 ![0, 64] (Raw.raw x0 (Weight.combined x2 x3 x4)) slices_S16384x128_S16384x32_0_64)
        (broadcastInDim S16384x32 ![0, 1] bcast_S16384x1_S16384x32_0_1
          (extractStridedSlice S16384x1 ![0, 98] (Raw.raw x0 (Weight.combined x2 x3 x4)) slices_S16384x128_S16384x1_0_98))
      = Cert.ReferenceIdeal.Read.val_main_v39 (F := Ideal) x0 x4 := by
  funext i
  obtain ⟨b, e, rfl⟩ : ∃ (b : Fin 16384) (e : Fin 32), i = ix2 b e := ⟨i 0, i 1, eq_ix2 i⟩
  have he := e.isLt
  refine Eq.trans ?_ (Cert.ReferenceIdeal.RefPool.actor_apply x0 x4 b e).symm
  refine (hostDivf_apply _ _ (ix2 b e)).trans ?_
  refine (congrArg₂ Ideal.div (block64_at _ b e) (col98_at _ b e)).trans ?_
  have hin := fun k => WeightAt.actor_in x2 x3 x4 k e
  have hone := fun k => WeightAt.actor_one x2 x3 x4 k
  have hout := fun n hn j hj => WeightAt.actor_out x2 x3 x4 n hn j hj
  generalize Weight.combined x2 x3 x4 = W at hin hone hout ⊢
  exact branch_core x0 W b 2212 8030 (by omega) (⟨e.val + 64, by omega⟩ : Fin 128) (⟨98, by omega⟩ : Fin 128)
    (fun k : Fin 8030 => x4 (ix2 e k)) hin
    (fun n hn => hout n (by have := n.isLt; omega) _ (Or.inl (by show 64 ≤ e.val + 64 ∧ e.val + 64 < 96; omega)))
    hone
    (fun n hn => hout n (by have := n.isLt; omega) _ (Or.inr rfl))

end Cert.KernelIdeal.Branches

end
-- ==== Proof.OutEq.lean ====
import proofs.«124779_j83743272337681_1_alg».proof.Proof.HostReads
import proofs.«124779_j83743272337681_1_alg».proof.Proof.Branches
import proofs.«124779_j83743272337681_1_alg».proof.Proof.Gen.ReferenceIdeal.Read

/-! # The kernel's tail computes the reference's result

The tail joins four blocks of 32 columns side by side. The first block is the chosen rows of the small table, each
scaled by its factor: the kernel's host program and the reference apply the same chain of operations to the same
two arguments, so the two blocks are the same function. The other three blocks are the pooled branches, which are the
reference's three stages. Four equal blocks joined the same way give equal results. -/

noncomputable section

namespace Cert.KernelIdeal.OutEq

open Cert.KernelIdeal Idealize.ShloMosaic

/-- The scaled rows of the small table: the same chain of operations on both sides. -/
theorem rows_eq (x0 : S16384x10242.Idx → BitVec 32) (x1 : S6x32.Idx → EReal) :
    HostReads.scaledRows x0 x1 = Cert.ReferenceIdeal.Read.val_main_v24 (F := Ideal) x0 x1 := by
  unfold HostReads.scaledRows HostReads.rowScale HostReads.rowNorm HostReads.gathered HostReads.wrapped
    HostReads.rowIndex
  unfold Cert.ReferenceIdeal.Read.val_main_v24 Cert.ReferenceIdeal.Read.val_main_v23
    Cert.ReferenceIdeal.Read.val_main_v22 Cert.ReferenceIdeal.Read.val_main_call1_v1
    Cert.ReferenceIdeal.Read.val_main_call1_v0 Cert.ReferenceIdeal.Read.val_main_cst_3
    Cert.ReferenceIdeal.Read.val_main_v21 Cert.ReferenceIdeal.Read.val_main_v20
    Cert.ReferenceIdeal.Read.val_main_cst_2 Cert.ReferenceIdeal.Read.val_main_v19
    Cert.ReferenceIdeal.Read.val_main_v18 Cert.ReferenceIdeal.Read.val_main_cst_1
    Cert.ReferenceIdeal.Read.val_main_v17 Cert.ReferenceIdeal.Read.val_main_v16
    Cert.ReferenceIdeal.Read.val_main_cst Cert.ReferenceIdeal.Read.val_main_v15
    Cert.ReferenceIdeal.Read.val_main_call0_v2 Cert.ReferenceIdeal.Read.val_main_call0_v1
    Cert.ReferenceIdeal.Read.val_main_call0_cst Cert.ReferenceIdeal.Read.val_main_call0_v0
    Cert.ReferenceIdeal.Read.val_main_v14 Cert.ReferenceIdeal.Read.val_main_v13
    Cert.ReferenceIdeal.Read.val_main_v12 Cert.ReferenceIdeal.Read.val_main_v11
    Cert.ReferenceIdeal.Read.val_main_v10 Cert.ReferenceIdeal.Read.val_main_c_0
    Cert.ReferenceIdeal.Read.val_main_v9 Cert.ReferenceIdeal.Read.val_main_v8
    Cert.ReferenceIdeal.Read.val_main_c Cert.ReferenceIdeal.Read.val_main_v1
    Cert.ReferenceIdeal.Read.val_main_v0
  rfl

/-- Over any region result `r`: if its three divided bands are the reference's three pooled stages, the joined tail is
    the reference's result. -/
theorem tail_eq_of_bands (x0 : S16384x10242.Idx → BitVec 32) (x1 : S6x32.Idx → EReal) (x2 : FVec Ideal S32x25 .f32)
    (x3 : FVec Ideal S32x2186 .f32) (x4 : FVec Ideal S32x8030 .f32) (r : S16384x128.Idx → EReal)
    (h0 : HostReads.band0 r = Cert.ReferenceIdeal.Read.val_main_v29 (F := Ideal) x0 x2)
    (h1 : HostReads.band1 r = Cert.ReferenceIdeal.Read.val_main_v34 (F := Ideal) x0 x3)
    (h2 : HostReads.band2 r = Cert.ReferenceIdeal.Read.val_main_v39 (F := Ideal) x0 x4) :
    HostReads.tailOf x0 x1 r = Cert.ReferenceIdeal.Read.val_main_v40 (F := Ideal) x0 x1 x2 x3 x4 := by
  unfold HostReads.tailOf Cert.ReferenceIdeal.Read.val_main_v40
  rw [rows_eq, h0, h1, h2]

/-- The tail applied to the region's product with the combined weight is the reference's result. -/
theorem out_eq (x0 : S16384x10242.Idx → BitVec 32) (x1 : S6x32.Idx → EReal) (x2 : FVec Ideal S32x25 .f32)
    (x3 : FVec Ideal S32x2186 .f32) (x4 : FVec Ideal S32x8030 .f32) :
    HostReads.tailOf x0 x1 (Raw.raw x0 (Weight.combined x2 x3 x4))
      = Cert.ReferenceIdeal.Read.val_main_v40 (F := Ideal) x0 x1 x2 x3 x4 := by
  have h0 := Branches.genre x0 x2 x3 x4
  have h1 := Branches.director x0 x2 x3 x4
  have h2 := Branches.actor x0 x2 x3 x4
  generalize Raw.raw x0 (Weight.combined x2 x3 x4) = r at h0 h1 h2 ⊢
  exact tail_eq_of_bands x0 x1 x2 x3 x4 r h0 h1 h2

end Cert.KernelIdeal.OutEq

end
-- ==== Proof.KernelOut.lean ====
import proofs.«124779_j83743272337681_1_alg».proof.Proof.KernelValue
import proofs.«124779_j83743272337681_1_alg».proof.Proof.HostReads
import proofs.«124779_j83743272337681_1_alg».proof.Proof.OutEq

/-! The idealized kernel's run, with its result named.

The region leaves the product of the integer input with the combined weight in its result array; the host
operations after it turn that into the program's result, which is, entry by entry, what the reference computes
from the same five arguments: the shared row scaling of the small table, and for each of the three branches
the weighted sum over the branch's own columns divided by the plain sum over them (the other columns of the
combined weight are zero and add nothing). -/

noncomputable section

namespace Cert.KernelIdeal.Out

open Cert.KernelIdeal Cert.KernelIdeal.Gen Cert.KernelIdeal.Fr
open Idealize.ShloMosaic Idealize.ShloMosaic.TcCoe Idealize.SL Idealize.SL.Sem

variable (m : (ℓ : Loc nD τ sig) → Buf (Elt Ideal) ℓ) (ρ : Dev nD → PrngReg)

/-- The region's result array after the run: the product of the launched integer input with the combined
    weight of the three launched weight matrices. -/
theorem region_result (c : Dev nD) :
    (dats m 0 c).arrAt 2 cfg0.N = Raw.raw (m ((c : Thread nD τ).loc main_arg0))
      (Weight.combined (F := Ideal) (m ((c : Thread nD τ).loc main_arg2)) (m ((c : Thread nD τ).loc main_arg3)) (m ((c : Thread nD τ).loc main_arg4))) := by
  rw [KV.final, V_main_arg0, HostReads.V_weight]

/-- Every weakly fair execution of the idealized kernel ends, without a fault, with its result at the
    reference's function of the five arguments and the arguments unchanged. -/
theorem run : θ_run defs (onTc (τ := τ) (main (F := Ideal))) ⟨m, fun _ => 0, ρ⟩ fun r => ∀ c : Dev nD,
      r.2.mem ((c.tc : Thread nD τ).loc main_v64)
        = Cert.ReferenceIdeal.Read.val_main_v40 (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v64 (Pipeline.mem_restRefs_of main_v64 (by decide) (by decide))).trans
        ((HostReads.tail_v64 m c _ (region_result m c)).trans (OutEq.out_eq _ _ _ _ _)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Out

end
-- ==== Proof.lean ====
/- The proof of `Cert.Claim`.

   The kernel computes three mean-pooled projections of a multi-hot integer array with ONE matrix product: the
   three weight matrices are laid, transposed, into disjoint row ranges and column bands of a 10242 × 128 matrix
   of zeros, with a column of ones per branch, so that entry (b, e) of a band of the product is the branch's
   weighted sum `∑ₖ x(b, o + k) · W(e, k)` over the branch's own columns — every other column of the input meets
   a zero weight, and `a · 0 = 0` for every extended real `a` — and the branch's ones column gives the plain sum
   `∑ₖ x(b, o + k)`. The host divides the one by the other, which is what the reference computes from its three
   separate products; the fourth part of the result, rows of a small table rescaled to norm at most one, is the
   same chain of host operations in both programs. The three frames: the two kernel programs by one proof read at
   both float instances (Proof/FrameBits.lean, Proof/FrameIdeal.lean), the reference's from its run. Nothing was
   idealized away, so there is nothing to preserve. -/
import proofs.«124779_j83743272337681_1_alg».proof.Defs
import proofs.«124779_j83743272337681_1_alg».proof.Proof.FrameBits
import proofs.«124779_j83743272337681_1_alg».proof.Proof.KernelOut
import proofs.«124779_j83743272337681_1_alg».proof.Proof.Gen.Kernel
import proofs.«124779_j83743272337681_1_alg».proof.Proof.Gen.KernelIdeal
import proofs.«124779_j83743272337681_1_alg».proof.Proof.Gen.ReferenceIdeal
import proofs.«124779_j83743272337681_1_alg».proof.Proof.Gen.ReferenceIdeal.Read
import proofs.«124779_j83743272337681_1_alg».proof.Proof.Gen.Pre_finite_inputs
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the five arguments both idealized programs end with the same result: the
    reference's function of the arguments. -/
theorem algebraic : Cert.algebraic_KernelIdeal_ReferenceIdeal := by
  intro m ρ m' ρ' _ hagree
  refine ⟨_, Cert.KernelIdeal.Out.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
